-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x512 : Shape := ⟨2, ![20000, 512]⟩
abbrev S160000 : Shape := ⟨1, ![160000]⟩
abbrev S512x512 : Shape := ⟨2, ![512, 512]⟩
abbrev S512 : Shape := ⟨1, ![512]⟩
abbrev S16x512x512 : Shape := ⟨3, ![16, 512, 512]⟩
abbrev S16x512 : Shape := ⟨2, ![16, 512]⟩
abbrev S_ : Shape := ⟨0, ![]⟩

class Facts : Prop where
  bcast_S_S20000x512 : S_.BroadcastsInDim S20000x512 (![] : Fin 0 → Fin S20000x512.rank)
  reducesTo_S20000x512_S_d0_1 : S20000x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S16x512x512 : S_.BroadcastsInDim S16x512x512 (![] : Fin 0 → Fin S16x512x512.rank)
  reducesTo_S16x512x512_S_d0_1_2 : S16x512x512.ReducesTo [0, 1, 2] S_
  bcast_S_S16x512 : S_.BroadcastsInDim S16x512 (![] : Fin 0 → Fin S16x512.rank)
  reducesTo_S16x512_S_d0_1 : S16x512.ReducesTo [0, 1] S_

variable [Facts]

def fn_part1 {F : FTy → Type} [FloatOps F] (main_arg7 : FVec F S16x512 .f32) (main_v13 : IVec S_ 1) (main_v16 : IVec S16x512x512 1) : IVec S_ 1 :=
  let main_c_5 : IVec S_ 1 := constantI S_ 1 1#1
  let main_v17 : IVec S_ 1 := (fun x v => Host.reduce IntOp.andi x v reducesTo_S16x512x512_S_d0_1_2 h_S_) main_v16 main_c_5
  let main_v18 : IVec S_ 1 := andi main_v13 main_v17
  let main_v19 : FVec F S16x512 .f32 := Host.absf main_arg7
  let main_cst_6 : FVec F S_ .f32 := constant S_ .f32 0x7F800000#32
  let main_v20 : FVec F S16x512 .f32 := broadcastInDim S16x512 ![] bcast_S_S16x512 main_cst_6
  let main_v21 : IVec S16x512 1 := cmpf .olt main_v19 main_v20
  let main_c_7 : IVec S_ 1 := constantI S_ 1 1#1
  let main_v22 : IVec S_ 1 := (fun x v => Host.reduce IntOp.andi x v reducesTo_S16x512_S_d0_1 h_S_) main_v21 main_c_7
  let main_v23 : IVec S_ 1 := andi main_v18 main_v22
  main_v23

def fn {F : FTy → Type} [FloatOps F] (main_arg0 : FVec F S20000x512 .f32) (main_arg1 : IVec S160000 32) (main_arg2 : IVec S160000 32) (main_arg3 : IVec S160000 32) (main_arg4 : FVec F S512x512 .f32) (main_arg5 : FVec F S512 .f32) (main_arg6 : FVec F S16x512x512 .f32) (main_arg7 : FVec F S16x512 .f32) : IVec S_ 1 :=
  let main_v0 : FVec F S20000x512 .f32 := Host.absf main_arg0
  let main_cst : FVec F S_ .f32 := constant S_ .f32 0x7F800000#32
  let main_v1 : FVec F S20000x512 .f32 := broadcastInDim S20000x512 ![] bcast_S_S20000x512 main_cst
  let main_v2 : IVec S20000x512 1 := cmpf .olt main_v0 main_v1
  let main_c : IVec S_ 1 := constantI S_ 1 1#1
  let main_v3 : IVec S_ 1 := (fun x v => Host.reduce IntOp.andi x v reducesTo_S20000x512_S_d0_1 h_S_) main_v2 main_c
  let main_v4 : FVec F S512x512 .f32 := Host.absf main_arg4
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg5
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S16x512x512 .f32 := Host.absf main_arg6
  let main_cst_4 : FVec F S_ .f32 := constant S_ .f32 0x7F800000#32
  let main_v15 : FVec F S16x512x512 .f32 := broadcastInDim S16x512x512 ![] bcast_S_S16x512x512 main_cst_4
  let main_v16 : IVec S16x512x512 1 := cmpf .olt main_v14 main_v15
  fn_part1 (F := F) main_arg7 main_v13 main_v16
-- ==== Kernel.lean ====
abbrev S20000x512 : Shape := ⟨2, ![20000, 512]⟩
abbrev S160000 : Shape := ⟨1, ![160000]⟩
abbrev S512x512 : Shape := ⟨2, ![512, 512]⟩
abbrev S512 : Shape := ⟨1, ![512]⟩
abbrev S16x512x512 : Shape := ⟨3, ![16, 512, 512]⟩
abbrev S16x512 : Shape := ⟨2, ![16, 512]⟩
abbrev S1x512x512 : Shape := ⟨3, ![1, 512, 512]⟩
abbrev S17x512x512 : Shape := ⟨3, ![17, 512, 512]⟩
abbrev S1x512 : Shape := ⟨2, ![1, 512]⟩
abbrev S17x512 : Shape := ⟨2, ![17, 512]⟩
abbrev S17x20000x512 : Shape := ⟨3, ![17, 20000, 512]⟩
abbrev S400x512 : Shape := ⟨2, ![400, 512]⟩
abbrev S17x400x512 : Shape := ⟨3, ![17, 400, 512]⟩
abbrev S1x400x512 : Shape := ⟨3, ![1, 400, 512]⟩
abbrev S16x20000x512 : Shape := ⟨3, ![16, 20000, 512]⟩
abbrev S1x20000x512 : Shape := ⟨3, ![1, 20000, 512]⟩
abbrev S_ : Shape := ⟨0, ![]⟩
abbrev S160000x1 : Shape := ⟨2, ![160000, 1]⟩
abbrev S160000x2 : Shape := ⟨2, ![160000, 2]⟩
abbrev S160000x512 : Shape := ⟨2, ![160000, 512]⟩

abbrev nBuf : Space → Nat
  | .hbm => 74
  | .vmem => 6
  | .smem => 0
  | _ => 0

abbrev bufTy : (tb : Table) → Fin (tcTables nBuf tb) → BufTy
  | .hbm, ⟨0, _⟩ => ⟨S20000x512, .f32⟩
  | .hbm, ⟨1, _⟩ => ⟨S160000, .i32⟩
  | .hbm, ⟨2, _⟩ => ⟨S160000, .i32⟩
  | .hbm, ⟨3, _⟩ => ⟨S160000, .i32⟩
  | .hbm, ⟨4, _⟩ => ⟨S512x512, .f32⟩
  | .hbm, ⟨5, _⟩ => ⟨S512, .f32⟩
  | .hbm, ⟨6, _⟩ => ⟨S16x512x512, .f32⟩
  | .hbm, ⟨7, _⟩ => ⟨S16x512, .f32⟩
  | .hbm, ⟨8, _⟩ => ⟨S20000x512, .bf16⟩
  | .hbm, ⟨9, _⟩ => ⟨S1x512x512, .f32⟩
  | .hbm, ⟨10, _⟩ => ⟨S17x512x512, .f32⟩
  | .hbm, ⟨11, _⟩ => ⟨S1x512, .f32⟩
  | .hbm, ⟨12, _⟩ => ⟨S17x512, .f32⟩
  | .hbm, ⟨13, _⟩ => ⟨S17x512x512, .f32⟩
  | .hbm, ⟨14, _⟩ => ⟨S17x512x512, .bf16⟩
  | .hbm, ⟨15, _⟩ => ⟨S17x20000x512, .bf16⟩
  | .hbm, ⟨16, _⟩ => ⟨S16x20000x512, .bf16⟩
  | .hbm, ⟨17, _⟩ => ⟨S1x20000x512, .bf16⟩
  | .hbm, ⟨18, _⟩ => ⟨S20000x512, .bf16⟩
  | .hbm, ⟨19, _⟩ => ⟨S20000x512, .f32⟩
  | .hbm, ⟨20, _⟩ => ⟨S_, .i32⟩
  | .hbm, ⟨21, _⟩ => ⟨S160000, .i32⟩
  | .hbm, ⟨22, _⟩ => ⟨S160000, .i1⟩
  | .hbm, ⟨23, _⟩ => ⟨S_, .i32⟩
  | .hbm, ⟨24, _⟩ => ⟨S160000, .i32⟩
  | .hbm, ⟨25, _⟩ => ⟨S160000, .i32⟩
  | .hbm, ⟨26, _⟩ => ⟨S160000, .i32⟩
  | .hbm, ⟨27, _⟩ => ⟨S_, .i32⟩
  | .hbm, ⟨28, _⟩ => ⟨S160000, .i32⟩
  | .hbm, ⟨29, _⟩ => ⟨S160000, .i1⟩
  | .hbm, ⟨30, _⟩ => ⟨S_, .i32⟩
  | .hbm, ⟨31, _⟩ => ⟨S160000, .i32⟩
  | .hbm, ⟨32, _⟩ => ⟨S160000, .i32⟩
  | .hbm, ⟨33, _⟩ => ⟨S160000, .i32⟩
  | .hbm, ⟨34, _⟩ => ⟨S160000x1, .i32⟩
  | .hbm, ⟨35, _⟩ => ⟨S160000x1, .i32⟩
  | .hbm, ⟨36, _⟩ => ⟨S160000x2, .i32⟩
  | .hbm, ⟨37, _⟩ => ⟨S160000x512, .bf16⟩
  | .hbm, ⟨38, _⟩ => ⟨S160000x512, .f32⟩
  | .hbm, ⟨39, _⟩ => ⟨S_, .i32⟩
  | .hbm, ⟨40, _⟩ => ⟨S160000, .i32⟩
  | .hbm, ⟨41, _⟩ => ⟨S160000, .i32⟩
  | .hbm, ⟨42, _⟩ => ⟨S_, .i32⟩
  | .hbm, ⟨43, _⟩ => ⟨S160000, .i32⟩
  | .hbm, ⟨44, _⟩ => ⟨S160000, .i1⟩
  | .hbm, ⟨45, _⟩ => ⟨S_, .i32⟩
  | .hbm, ⟨46, _⟩ => ⟨S160000, .i32⟩
  | .hbm, ⟨47, _⟩ => ⟨S160000, .i32⟩
  | .hbm, ⟨48, _⟩ => ⟨S160000, .i32⟩
  | .hbm, ⟨49, _⟩ => ⟨S_, .i32⟩
  | .hbm, ⟨50, _⟩ => ⟨S160000, .i32⟩
  | .hbm, ⟨51, _⟩ => ⟨S160000, .i1⟩
  | .hbm, ⟨52, _⟩ => ⟨S_, .i32⟩
  | .hbm, ⟨53, _⟩ => ⟨S160000, .i32⟩
  | .hbm, ⟨54, _⟩ => ⟨S160000, .i32⟩
  | .hbm, ⟨55, _⟩ => ⟨S160000, .i32⟩
  | .hbm, ⟨56, _⟩ => ⟨S160000x1, .i32⟩
  | .hbm, ⟨57, _⟩ => ⟨S160000x1, .i32⟩
  | .hbm, ⟨58, _⟩ => ⟨S160000x2, .i32⟩
  | .hbm, ⟨59, _⟩ => ⟨S160000x512, .bf16⟩
  | .hbm, ⟨60, _⟩ => ⟨S160000x512, .f32⟩
  | .hbm, ⟨61, _⟩ => ⟨S_, .f32⟩
  | .hbm, ⟨62, _⟩ => ⟨S20000x512, .f32⟩
  | .hbm, ⟨63, _⟩ => ⟨S160000x1, .i32⟩
  | .hbm, ⟨64, _⟩ => ⟨S20000x512, .f32⟩
  | .hbm, ⟨65, _⟩ => ⟨S_, .f32⟩
  | .hbm, ⟨66, _⟩ => ⟨S20000x512, .f32⟩
  | .hbm, ⟨67, _⟩ => ⟨S160000x1, .i32⟩
  | .hbm, ⟨68, _⟩ => ⟨S20000x512, .f32⟩
  | .hbm, ⟨69, _⟩ => ⟨S20000x512, .f32⟩
  | .hbm, ⟨70, _⟩ => ⟨S20000x512, .f32⟩
  | .hbm, ⟨71, _⟩ => ⟨S_, .f32⟩
  | .hbm, ⟨72, _⟩ => ⟨S20000x512, .f32⟩
  | .hbm, ⟨73, _⟩ => ⟨S20000x512, .f32⟩
  | .local _ .vmem, ⟨0, _⟩ => ⟨S400x512, .bf16⟩
  | .local _ .vmem, ⟨1, _⟩ => ⟨S400x512, .bf16⟩
  | .local _ .vmem, ⟨2, _⟩ => ⟨S17x512x512, .bf16⟩
  | .local _ .vmem, ⟨3, _⟩ => ⟨S17x512, .f32⟩
  | .local _ .vmem, ⟨4, _⟩ => ⟨S17x400x512, .bf16⟩
  | .local _ .vmem, ⟨5, _⟩ => ⟨S17x400x512, .bf16⟩
  | _, _ => ⟨S20000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c_1 : Ref sig .tc := ⟨.hbm, 27, rfl⟩
abbrev main_v17 : Ref sig .tc := ⟨.hbm, 28, rfl⟩
abbrev main_v18 : Ref sig .tc := ⟨.hbm, 29, rfl⟩
abbrev main_c_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c_3 : Ref sig .tc := ⟨.hbm, 39, rfl⟩
abbrev main_v27 : Ref sig .tc := ⟨.hbm, 40, rfl⟩
abbrev main_v28 : Ref sig .tc := ⟨.hbm, 41, rfl⟩
abbrev main_c_4 : Ref sig .tc := ⟨.hbm, 42, rfl⟩
abbrev main_v29 : Ref sig .tc := ⟨.hbm, 43, rfl⟩
abbrev main_v30 : Ref sig .tc := ⟨.hbm, 44, rfl⟩
abbrev main_c_5 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_c_6 : Ref sig .tc := ⟨.hbm, 49, rfl⟩
abbrev main_v34 : Ref sig .tc := ⟨.hbm, 50, rfl⟩
abbrev main_v35 : Ref sig .tc := ⟨.hbm, 51, rfl⟩
abbrev main_c_7 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_8 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_call0_cst : Ref sig .tc := ⟨.hbm, 71, rfl⟩
abbrev main_call0_v0 : Ref sig .tc := ⟨.hbm, 72, rfl⟩
abbrev main_v52 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S400x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S17x512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S17x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S17x400x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bitsLt_bf16_f32 : FTy.bits .bf16 < FTy.bits .f32
  bcast_S512x512_S1x512x512_1_2 : S512x512.BroadcastsInDim S1x512x512 (![1, 2] : Fin 2 → Fin S1x512x512.rank)
  concatenates_S16x512x512_S1x512x512_S17x512x512_d0 : Shape.Concatenates [S16x512x512, S1x512x512] S17x512x512 0
  bcast_S512_S1x512_1 : S512.BroadcastsInDim S1x512 (![1] : Fin 1 → Fin S1x512.rank)
  concatenates_S16x512_S1x512_S17x512_d0 : Shape.Concatenates [S16x512, S1x512] S17x512 0
  transposes_S17x512x512_S17x512x512_0_2_1 : S17x512x512.Transposes [0, 2, 1] S17x512x512
  inb_S400x512_S400x512_0_0 : ∀ a, (![0, 0] : Fin 2 → Nat) a + S400x512.size a ≤ S400x512.size a
  h_S400x512 : 0 < S400x512.numel
  shapeCasts_S400x512_S400x512 : S400x512.ShapeCasts S400x512
  inb_S17x512x512_S1x512x512_0_0_0 : ∀ a, (![0, 0, 0] : Fin 3 → Nat) a + S1x512x512.size a ≤ S17x512x512.size a
  h_S1x512x512 : 0 < S1x512x512.numel
  shapeCasts_S1x512x512_S512x512 : S1x512x512.ShapeCasts S512x512
  inb_S17x512_S1x512_0_0 : ∀ a, (![0, 0] : Fin 2 → Nat) a + S1x512.size a ≤ S17x512.size a
  h_S1x512 : 0 < S1x512.numel
  shapeCasts_S1x512_S512 : S1x512.ShapeCasts S512
  shapeCasts_S512_S1x512 : S512.ShapeCasts S1x512
  broadcasts_S1x512_S400x512 : S1x512.Broadcasts S400x512
  inb_S17x400x512_S1x400x512_0_0_0 : ∀ a, (![0, 0, 0] : Fin 3 → Nat) a + S1x400x512.size a ≤ S17x400x512.size a
  h_S1x400x512 : 0 < S1x400x512.numel
  shapeCasts_S1x400x512_S400x512 : S1x400x512.ShapeCasts S400x512
  shapeCasts_S400x512_S1x400x512 : S400x512.ShapeCasts S1x400x512
  packedbf16_S17x400x512_S1x400x512_0_0_0 : (Rect.unit (s := S17x400x512) ![0, 0, 0] S1x400x512.size inb_S17x400x512_S1x400x512_0_0_0).PackedRows (EltTy.packing .bf16)
  inb_S17x512x512_S1x512x512_1_0_0 : ∀ a, (![1, 0, 0] : Fin 3 → Nat) a + S1x512x512.size a ≤ S17x512x512.size a
  inb_S17x512_S1x512_1_0 : ∀ a, (![1, 0] : Fin 2 → Nat) a + S1x512.size a ≤ S17x512.size a
  inb_S17x400x512_S1x400x512_1_0_0 : ∀ a, (![1, 0, 0] : Fin 3 → Nat) a + S1x400x512.size a ≤ S17x400x512.size a
  packedbf16_S17x400x512_S1x400x512_1_0_0 : (Rect.unit (s := S17x400x512) ![1, 0, 0] S1x400x512.size inb_S17x400x512_S1x400x512_1_0_0).PackedRows (EltTy.packing .bf16)
  inb_S17x512x512_S1x512x512_2_0_0 : ∀ a, (![2, 0, 0] : Fin 3 → Nat) a + S1x512x512.size a ≤ S17x512x512.size a
  inb_S17x512_S1x512_2_0 : ∀ a, (![2, 0] : Fin 2 → Nat) a + S1x512.size a ≤ S17x512.size a
  inb_S17x400x512_S1x400x512_2_0_0 : ∀ a, (![2, 0, 0] : Fin 3 → Nat) a + S1x400x512.size a ≤ S17x400x512.size a
  packedbf16_S17x400x512_S1x400x512_2_0_0 : (Rect.unit (s := S17x400x512) ![2, 0, 0] S1x400x512.size inb_S17x400x512_S1x400x512_2_0_0).PackedRows (EltTy.packing .bf16)
  inb_S17x512x512_S1x512x512_3_0_0 : ∀ a, (![3, 0, 0] : Fin 3 → Nat) a + S1x512x512.size a ≤ S17x512x512.size a
  inb_S17x512_S1x512_3_0 : ∀ a, (![3, 0] : Fin 2 → Nat) a + S1x512.size a ≤ S17x512.size a
  inb_S17x400x512_S1x400x512_3_0_0 : ∀ a, (![3, 0, 0] : Fin 3 → Nat) a + S1x400x512.size a ≤ S17x400x512.size a
  packedbf16_S17x400x512_S1x400x512_3_0_0 : (Rect.unit (s := S17x400x512) ![3, 0, 0] S1x400x512.size inb_S17x400x512_S1x400x512_3_0_0).PackedRows (EltTy.packing .bf16)
  inb_S17x512x512_S1x512x512_4_0_0 : ∀ a, (![4, 0, 0] : Fin 3 → Nat) a + S1x512x512.size a ≤ S17x512x512.size a
  inb_S17x512_S1x512_4_0 : ∀ a, (![4, 0] : Fin 2 → Nat) a + S1x512.size a ≤ S17x512.size a
  inb_S17x400x512_S1x400x512_4_0_0 : ∀ a, (![4, 0, 0] : Fin 3 → Nat) a + S1x400x512.size a ≤ S17x400x512.size a
  packedbf16_S17x400x512_S1x400x512_4_0_0 : (Rect.unit (s := S17x400x512) ![4, 0, 0] S1x400x512.size inb_S17x400x512_S1x400x512_4_0_0).PackedRows (EltTy.packing .bf16)
  inb_S17x512x512_S1x512x512_5_0_0 : ∀ a, (![5, 0, 0] : Fin 3 → Nat) a + S1x512x512.size a ≤ S17x512x512.size a
  inb_S17x512_S1x512_5_0 : ∀ a, (![5, 0] : Fin 2 → Nat) a + S1x512.size a ≤ S17x512.size a
  inb_S17x400x512_S1x400x512_5_0_0 : ∀ a, (![5, 0, 0] : Fin 3 → Nat) a + S1x400x512.size a ≤ S17x400x512.size a
  packedbf16_S17x400x512_S1x400x512_5_0_0 : (Rect.unit (s := S17x400x512) ![5, 0, 0] S1x400x512.size inb_S17x400x512_S1x400x512_5_0_0).PackedRows (EltTy.packing .bf16)
  inb_S17x512x512_S1x512x512_6_0_0 : ∀ a, (![6, 0, 0] : Fin 3 → Nat) a + S1x512x512.size a ≤ S17x512x512.size a
  inb_S17x512_S1x512_6_0 : ∀ a, (![6, 0] : Fin 2 → Nat) a + S1x512.size a ≤ S17x512.size a
  inb_S17x400x512_S1x400x512_6_0_0 : ∀ a, (![6, 0, 0] : Fin 3 → Nat) a + S1x400x512.size a ≤ S17x400x512.size a
  packedbf16_S17x400x512_S1x400x512_6_0_0 : (Rect.unit (s := S17x400x512) ![6, 0, 0] S1x400x512.size inb_S17x400x512_S1x400x512_6_0_0).PackedRows (EltTy.packing .bf16)
  inb_S17x512x512_S1x512x512_7_0_0 : ∀ a, (![7, 0, 0] : Fin 3 → Nat) a + S1x512x512.size a ≤ S17x512x512.size a
  inb_S17x512_S1x512_7_0 : ∀ a, (![7, 0] : Fin 2 → Nat) a + S1x512.size a ≤ S17x512.size a
  inb_S17x400x512_S1x400x512_7_0_0 : ∀ a, (![7, 0, 0] : Fin 3 → Nat) a + S1x400x512.size a ≤ S17x400x512.size a
  packedbf16_S17x400x512_S1x400x512_7_0_0 : (Rect.unit (s := S17x400x512) ![7, 0, 0] S1x400x512.size inb_S17x400x512_S1x400x512_7_0_0).PackedRows (EltTy.packing .bf16)
  inb_S17x512x512_S1x512x512_8_0_0 : ∀ a, (![8, 0, 0] : Fin 3 → Nat) a + S1x512x512.size a ≤ S17x512x512.size a
  inb_S17x512_S1x512_8_0 : ∀ a, (![8, 0] : Fin 2 → Nat) a + S1x512.size a ≤ S17x512.size a
  inb_S17x400x512_S1x400x512_8_0_0 : ∀ a, (![8, 0, 0] : Fin 3 → Nat) a + S1x400x512.size a ≤ S17x400x512.size a
  packedbf16_S17x400x512_S1x400x512_8_0_0 : (Rect.unit (s := S17x400x512) ![8, 0, 0] S1x400x512.size inb_S17x400x512_S1x400x512_8_0_0).PackedRows (EltTy.packing .bf16)
  inb_S17x512x512_S1x512x512_9_0_0 : ∀ a, (![9, 0, 0] : Fin 3 → Nat) a + S1x512x512.size a ≤ S17x512x512.size a
  inb_S17x512_S1x512_9_0 : ∀ a, (![9, 0] : Fin 2 → Nat) a + S1x512.size a ≤ S17x512.size a
  inb_S17x400x512_S1x400x512_9_0_0 : ∀ a, (![9, 0, 0] : Fin 3 → Nat) a + S1x400x512.size a ≤ S17x400x512.size a
  packedbf16_S17x400x512_S1x400x512_9_0_0 : (Rect.unit (s := S17x400x512) ![9, 0, 0] S1x400x512.size inb_S17x400x512_S1x400x512_9_0_0).PackedRows (EltTy.packing .bf16)
  inb_S17x512x512_S1x512x512_10_0_0 : ∀ a, (![10, 0, 0] : Fin 3 → Nat) a + S1x512x512.size a ≤ S17x512x512.size a
  inb_S17x512_S1x512_10_0 : ∀ a, (![10, 0] : Fin 2 → Nat) a + S1x512.size a ≤ S17x512.size a
  inb_S17x400x512_S1x400x512_10_0_0 : ∀ a, (![10, 0, 0] : Fin 3 → Nat) a + S1x400x512.size a ≤ S17x400x512.size a
  packedbf16_S17x400x512_S1x400x512_10_0_0 : (Rect.unit (s := S17x400x512) ![10, 0, 0] S1x400x512.size inb_S17x400x512_S1x400x512_10_0_0).PackedRows (EltTy.packing .bf16)
  inb_S17x512x512_S1x512x512_11_0_0 : ∀ a, (![11, 0, 0] : Fin 3 → Nat) a + S1x512x512.size a ≤ S17x512x512.size a
  inb_S17x512_S1x512_11_0 : ∀ a, (![11, 0] : Fin 2 → Nat) a + S1x512.size a ≤ S17x512.size a
  inb_S17x400x512_S1x400x512_11_0_0 : ∀ a, (![11, 0, 0] : Fin 3 → Nat) a + S1x400x512.size a ≤ S17x400x512.size a
  packedbf16_S17x400x512_S1x400x512_11_0_0 : (Rect.unit (s := S17x400x512) ![11, 0, 0] S1x400x512.size inb_S17x400x512_S1x400x512_11_0_0).PackedRows (EltTy.packing .bf16)
  inb_S17x512x512_S1x512x512_12_0_0 : ∀ a, (![12, 0, 0] : Fin 3 → Nat) a + S1x512x512.size a ≤ S17x512x512.size a
  inb_S17x512_S1x512_12_0 : ∀ a, (![12, 0] : Fin 2 → Nat) a + S1x512.size a ≤ S17x512.size a
  inb_S17x400x512_S1x400x512_12_0_0 : ∀ a, (![12, 0, 0] : Fin 3 → Nat) a + S1x400x512.size a ≤ S17x400x512.size a
  packedbf16_S17x400x512_S1x400x512_12_0_0 : (Rect.unit (s := S17x400x512) ![12, 0, 0] S1x400x512.size inb_S17x400x512_S1x400x512_12_0_0).PackedRows (EltTy.packing .bf16)
  inb_S17x512x512_S1x512x512_13_0_0 : ∀ a, (![13, 0, 0] : Fin 3 → Nat) a + S1x512x512.size a ≤ S17x512x512.size a
  inb_S17x512_S1x512_13_0 : ∀ a, (![13, 0] : Fin 2 → Nat) a + S1x512.size a ≤ S17x512.size a
  inb_S17x400x512_S1x400x512_13_0_0 : ∀ a, (![13, 0, 0] : Fin 3 → Nat) a + S1x400x512.size a ≤ S17x400x512.size a
  packedbf16_S17x400x512_S1x400x512_13_0_0 : (Rect.unit (s := S17x400x512) ![13, 0, 0] S1x400x512.size inb_S17x400x512_S1x400x512_13_0_0).PackedRows (EltTy.packing .bf16)
  inb_S17x512x512_S1x512x512_14_0_0 : ∀ a, (![14, 0, 0] : Fin 3 → Nat) a + S1x512x512.size a ≤ S17x512x512.size a
  inb_S17x512_S1x512_14_0 : ∀ a, (![14, 0] : Fin 2 → Nat) a + S1x512.size a ≤ S17x512.size a
  inb_S17x400x512_S1x400x512_14_0_0 : ∀ a, (![14, 0, 0] : Fin 3 → Nat) a + S1x400x512.size a ≤ S17x400x512.size a
  packedbf16_S17x400x512_S1x400x512_14_0_0 : (Rect.unit (s := S17x400x512) ![14, 0, 0] S1x400x512.size inb_S17x400x512_S1x400x512_14_0_0).PackedRows (EltTy.packing .bf16)
  inb_S17x512x512_S1x512x512_15_0_0 : ∀ a, (![15, 0, 0] : Fin 3 → Nat) a + S1x512x512.size a ≤ S17x512x512.size a
  inb_S17x512_S1x512_15_0 : ∀ a, (![15, 0] : Fin 2 → Nat) a + S1x512.size a ≤ S17x512.size a
  inb_S17x400x512_S1x400x512_15_0_0 : ∀ a, (![15, 0, 0] : Fin 3 → Nat) a + S1x400x512.size a ≤ S17x400x512.size a
  packedbf16_S17x400x512_S1x400x512_15_0_0 : (Rect.unit (s := S17x400x512) ![15, 0, 0] S1x400x512.size inb_S17x400x512_S1x400x512_15_0_0).PackedRows (EltTy.packing .bf16)
  inb_S17x512x512_S1x512x512_16_0_0 : ∀ a, (![16, 0, 0] : Fin 3 → Nat) a + S1x512x512.size a ≤ S17x512x512.size a
  inb_S17x512_S1x512_16_0 : ∀ a, (![16, 0] : Fin 2 → Nat) a + S1x512.size a ≤ S17x512.size a
  inb_S17x400x512_S1x400x512_16_0_0 : ∀ a, (![16, 0, 0] : Fin 3 → Nat) a + S1x400x512.size a ≤ S17x400x512.size a
  packedbf16_S17x400x512_S1x400x512_16_0_0 : (Rect.unit (s := S17x400x512) ![16, 0, 0] S1x400x512.size inb_S17x400x512_S1x400x512_16_0_0).PackedRows (EltTy.packing .bf16)
  slices_S17x20000x512_S16x20000x512_0_0_0 : S17x20000x512.Slices ![0, 0, 0] S16x20000x512
  slices_S17x20000x512_S1x20000x512_16_0_0 : S17x20000x512.Slices ![16, 0, 0] S1x20000x512
  shapeCasts_S1x20000x512_S20000x512 : S1x20000x512.ShapeCasts S20000x512
  bcast_S_S160000 : S_.BroadcastsInDim S160000 (![] : Fin 0 → Fin S160000.rank)
  bcast_S160000_S160000x1_0 : S160000.BroadcastsInDim S160000x1 (![0] : Fin 1 → Fin S160000x1.rank)
  concatenates_S160000x1_S160000x1_S160000x2_d1 : Shape.Concatenates [S160000x1, S160000x1] S160000x2 1
  bcast_S_S20000x512 : S_.BroadcastsInDim S20000x512 (![] : Fin 0 → Fin S20000x512.rank)
  dot_S400x512_S512x512_S400x512_1_0_0_1_n_n_wf : DotDims.WF S400x512 S512x512 S400x512 [1] [0] [0] [1] [] []
  gather_S16x20000x512_S160000x2_S160000x512_1_01_n_n_01_1_11512_wf : GatherDims.WF S16x20000x512 S160000x2 S160000x512 [1] [0, 1] [] [0, 1] [] 1 ![1, 1, 512]
  scatter_S20000x512_S160000x1_S160000x512_1_0_0_1_wf : ScatterDims.WF S20000x512 S160000x1 S160000x512 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x512.size a ≤ S20000x512.size a
  hwx0_0 : ∀ i : grid0.Coords, EltTy.bits .bf16 = 32 ∨ (Rect.block (s := S20000x512) S400x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S17x512x512.size a ≤ S17x512x512.size a
  hwx0_1 : ∀ i : grid0.Coords, EltTy.bits .bf16 = 32 ∨ (Rect.block (s := S17x512x512) S17x512x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S17x512.size a ≤ S17x512.size a
  hwx0_2 : ∀ i : grid0.Coords, EltTy.bits .f32 = 32 ∨ (Rect.block (s := S17x512) S17x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S17x400x512.size a ≤ S17x20000x512.size a
  hwx0_3 : ∀ i : grid0.Coords, EltTy.bits .bf16 = 32 ∨ (Rect.block (s := S17x20000x512) S17x400x512.size (cc0_transform_3 i) (hinb0_3 i)).WholeWords (EltTy.packing .bf16)

variable [Facts₀]

def dot_S400x512_S512x512_S400x512_1_0_0_1_n_n : DotDims S400x512 S512x512 S400x512 where
  lhsContracting := [1]
  rhsContracting := [0]
  lhsNonContracting := [0]
  rhsNonContracting := [1]
  lhsBatch := []
  rhsBatch := []
  wf := dot_S400x512_S512x512_S400x512_1_0_0_1_n_n_wf
def gather_S16x20000x512_S160000x2_S160000x512_1_01_n_n_01_1_11512 : GatherDims S16x20000x512 S160000x2 S160000x512 where
  offsetDims := [1]
  collapsedSliceDims := [0, 1]
  operandBatchingDims := []
  startIndicesBatchingDims := []
  startIndexMap := [0, 1]
  indexVectorDim := 1
  sliceSizes := ![1, 1, 512]
  wf := gather_S16x20000x512_S160000x2_S160000x512_1_01_n_n_01_1_11512_wf
def scatter_S20000x512_S160000x1_S160000x512_1_0_0_1 : ScatterDims S20000x512 S160000x1 S160000x512 where
  updateWindowDims := [1]
  insertedWindowDims := [0]
  scatterDimsToOperandDims := [0]
  indexVectorDim := 1
  wf := scatter_S20000x512_S160000x1_S160000x512_1_0_0_1_wf

abbrev win0_0 : Pipeline.Window sig grid0 :=
  Pipeline.Window.ofSpec (Memref.whole main_v0) S400x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S17x512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S17x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S17x400x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S20000x512 : Shape := ⟨2, ![20000, 512]⟩
abbrev S160000 : Shape := ⟨1, ![160000]⟩
abbrev S512x512 : Shape := ⟨2, ![512, 512]⟩
abbrev S512 : Shape := ⟨1, ![512]⟩
abbrev S16x512x512 : Shape := ⟨3, ![16, 512, 512]⟩
abbrev S16x512 : Shape := ⟨2, ![16, 512]⟩
abbrev S1x512 : Shape := ⟨2, ![1, 512]⟩
abbrev S20000x16x512 : Shape := ⟨3, ![20000, 16, 512]⟩
abbrev S16x20000x512 : Shape := ⟨3, ![16, 20000, 512]⟩
abbrev S16x1x512 : Shape := ⟨3, ![16, 1, 512]⟩
abbrev S_ : Shape := ⟨0, ![]⟩
abbrev S160000x1 : Shape := ⟨2, ![160000, 1]⟩
abbrev S160000x2 : Shape := ⟨2, ![160000, 2]⟩
abbrev S160000x512 : Shape := ⟨2, ![160000, 512]⟩

abbrev nBuf : Space → Nat
  | .hbm => 70
  | .vmem => 0
  | .smem => 0
  | _ => 0

abbrev bufTy : (tb : Table) → Fin (tcTables nBuf tb) → BufTy
  | .hbm, ⟨0, _⟩ => ⟨S20000x512, .f32⟩
  | .hbm, ⟨1, _⟩ => ⟨S160000, .i32⟩
  | .hbm, ⟨2, _⟩ => ⟨S160000, .i32⟩
  | .hbm, ⟨3, _⟩ => ⟨S160000, .i32⟩
  | .hbm, ⟨4, _⟩ => ⟨S512x512, .f32⟩
  | .hbm, ⟨5, _⟩ => ⟨S512, .f32⟩
  | .hbm, ⟨6, _⟩ => ⟨S16x512x512, .f32⟩
  | .hbm, ⟨7, _⟩ => ⟨S16x512, .f32⟩
  | .hbm, ⟨8, _⟩ => ⟨S512x512, .f32⟩
  | .hbm, ⟨9, _⟩ => ⟨S20000x512, .f32⟩
  | .hbm, ⟨10, _⟩ => ⟨S1x512, .f32⟩
  | .hbm, ⟨11, _⟩ => ⟨S20000x512, .f32⟩
  | .hbm, ⟨12, _⟩ => ⟨S20000x512, .f32⟩
  | .hbm, ⟨13, _⟩ => ⟨S20000x16x512, .f32⟩
  | .hbm, ⟨14, _⟩ => ⟨S16x20000x512, .f32⟩
  | .hbm, ⟨15, _⟩ => ⟨S16x1x512, .f32⟩
  | .hbm, ⟨16, _⟩ => ⟨S16x20000x512, .f32⟩
  | .hbm, ⟨17, _⟩ => ⟨S16x20000x512, .f32⟩
  | .hbm, ⟨18, _⟩ => ⟨S_, .i32⟩
  | .hbm, ⟨19, _⟩ => ⟨S160000, .i32⟩
  | .hbm, ⟨20, _⟩ => ⟨S160000, .i1⟩
  | .hbm, ⟨21, _⟩ => ⟨S_, .i32⟩
  | .hbm, ⟨22, _⟩ => ⟨S160000, .i32⟩
  | .hbm, ⟨23, _⟩ => ⟨S160000, .i32⟩
  | .hbm, ⟨24, _⟩ => ⟨S160000, .i32⟩
  | .hbm, ⟨25, _⟩ => ⟨S_, .i32⟩
  | .hbm, ⟨26, _⟩ => ⟨S160000, .i32⟩
  | .hbm, ⟨27, _⟩ => ⟨S160000, .i1⟩
  | .hbm, ⟨28, _⟩ => ⟨S_, .i32⟩
  | .hbm, ⟨29, _⟩ => ⟨S160000, .i32⟩
  | .hbm, ⟨30, _⟩ => ⟨S160000, .i32⟩
  | .hbm, ⟨31, _⟩ => ⟨S160000, .i32⟩
  | .hbm, ⟨32, _⟩ => ⟨S160000x1, .i32⟩
  | .hbm, ⟨33, _⟩ => ⟨S160000x1, .i32⟩
  | .hbm, ⟨34, _⟩ => ⟨S160000x2, .i32⟩
  | .hbm, ⟨35, _⟩ => ⟨S160000x512, .f32⟩
  | .hbm, ⟨36, _⟩ => ⟨S_, .i32⟩
  | .hbm, ⟨37, _⟩ => ⟨S160000, .i32⟩
  | .hbm, ⟨38, _⟩ => ⟨S160000, .i32⟩
  | .hbm, ⟨39, _⟩ => ⟨S_, .i32⟩
  | .hbm, ⟨40, _⟩ => ⟨S160000, .i32⟩
  | .hbm, ⟨41, _⟩ => ⟨S160000, .i1⟩
  | .hbm, ⟨42, _⟩ => ⟨S_, .i32⟩
  | .hbm, ⟨43, _⟩ => ⟨S160000, .i32⟩
  | .hbm, ⟨44, _⟩ => ⟨S160000, .i32⟩
  | .hbm, ⟨45, _⟩ => ⟨S160000, .i32⟩
  | .hbm, ⟨46, _⟩ => ⟨S_, .i32⟩
  | .hbm, ⟨47, _⟩ => ⟨S160000, .i32⟩
  | .hbm, ⟨48, _⟩ => ⟨S160000, .i1⟩
  | .hbm, ⟨49, _⟩ => ⟨S_, .i32⟩
  | .hbm, ⟨50, _⟩ => ⟨S160000, .i32⟩
  | .hbm, ⟨51, _⟩ => ⟨S160000, .i32⟩
  | .hbm, ⟨52, _⟩ => ⟨S160000, .i32⟩
  | .hbm, ⟨53, _⟩ => ⟨S160000x1, .i32⟩
  | .hbm, ⟨54, _⟩ => ⟨S160000x1, .i32⟩
  | .hbm, ⟨55, _⟩ => ⟨S160000x2, .i32⟩
  | .hbm, ⟨56, _⟩ => ⟨S160000x512, .f32⟩
  | .hbm, ⟨57, _⟩ => ⟨S_, .f32⟩
  | .hbm, ⟨58, _⟩ => ⟨S20000x512, .f32⟩
  | .hbm, ⟨59, _⟩ => ⟨S160000x1, .i32⟩
  | .hbm, ⟨60, _⟩ => ⟨S20000x512, .f32⟩
  | .hbm, ⟨61, _⟩ => ⟨S_, .f32⟩
  | .hbm, ⟨62, _⟩ => ⟨S20000x512, .f32⟩
  | .hbm, ⟨63, _⟩ => ⟨S160000x1, .i32⟩
  | .hbm, ⟨64, _⟩ => ⟨S20000x512, .f32⟩
  | .hbm, ⟨65, _⟩ => ⟨S20000x512, .f32⟩
  | .hbm, ⟨66, _⟩ => ⟨S20000x512, .f32⟩
  | .hbm, ⟨67, _⟩ => ⟨S_, .f32⟩
  | .hbm, ⟨68, _⟩ => ⟨S20000x512, .f32⟩
  | .hbm, ⟨69, _⟩ => ⟨S20000x512, .f32⟩
  | _, _ => ⟨S20000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c : Ref sig .tc := ⟨.hbm, 18, rfl⟩
abbrev main_v10 : Ref sig .tc := ⟨.hbm, 19, rfl⟩
abbrev main_v11 : Ref sig .tc := ⟨.hbm, 20, rfl⟩
abbrev main_c_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_1 : Ref sig .tc := ⟨.hbm, 25, rfl⟩
abbrev main_v15 : Ref sig .tc := ⟨.hbm, 26, rfl⟩
abbrev main_v16 : Ref sig .tc := ⟨.hbm, 27, rfl⟩
abbrev main_c_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_3 : Ref sig .tc := ⟨.hbm, 36, rfl⟩
abbrev main_v24 : Ref sig .tc := ⟨.hbm, 37, rfl⟩
abbrev main_v25 : Ref sig .tc := ⟨.hbm, 38, rfl⟩
abbrev main_c_4 : Ref sig .tc := ⟨.hbm, 39, rfl⟩
abbrev main_v26 : Ref sig .tc := ⟨.hbm, 40, rfl⟩
abbrev main_v27 : Ref sig .tc := ⟨.hbm, 41, rfl⟩
abbrev main_c_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_6 : Ref sig .tc := ⟨.hbm, 46, rfl⟩
abbrev main_v31 : Ref sig .tc := ⟨.hbm, 47, rfl⟩
abbrev main_v32 : Ref sig .tc := ⟨.hbm, 48, rfl⟩
abbrev main_c_7 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_8 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_call0_cst : Ref sig .tc := ⟨.hbm, 67, rfl⟩
abbrev main_call0_v0 : Ref sig .tc := ⟨.hbm, 68, rfl⟩
abbrev main_v48 : Ref sig .tc := ⟨.hbm, 69, rfl⟩

abbrev nD : Nat := 1
abbrev τ : Topo := Topo.v7x

variable {F : FTy → Type} [FloatOps F]

class Facts₀ : Prop where
  transposes_S512x512_S512x512_1_0 : S512x512.Transposes [1, 0] S512x512
  bcast_S512_S1x512_1 : S512.BroadcastsInDim S1x512 (![1] : Fin 1 → Fin S1x512.rank)
  bcast_S1x512_S20000x512_0_1 : S1x512.BroadcastsInDim S20000x512 (![0, 1] : Fin 2 → Fin S20000x512.rank)
  transposes_S20000x16x512_S16x20000x512_1_0_2 : S20000x16x512.Transposes [1, 0, 2] S16x20000x512
  bcast_S16x512_S16x1x512_0_2 : S16x512.BroadcastsInDim S16x1x512 (![0, 2] : Fin 2 → Fin S16x1x512.rank)
  bcast_S16x1x512_S16x20000x512_0_1_2 : S16x1x512.BroadcastsInDim S16x20000x512 (![0, 1, 2] : Fin 3 → Fin S16x20000x512.rank)
  bcast_S_S160000 : S_.BroadcastsInDim S160000 (![] : Fin 0 → Fin S160000.rank)
  bcast_S160000_S160000x1_0 : S160000.BroadcastsInDim S160000x1 (![0] : Fin 1 → Fin S160000x1.rank)
  concatenates_S160000x1_S160000x1_S160000x2_d1 : Shape.Concatenates [S160000x1, S160000x1] S160000x2 1
  bcast_S_S20000x512 : S_.BroadcastsInDim S20000x512 (![] : Fin 0 → Fin S20000x512.rank)
  dot_S20000x512_S512x512_S20000x512_1_0_0_1_n_n_wf : DotDims.WF S20000x512 S512x512 S20000x512 [1] [0] [0] [1] [] []
  dot_S20000x512_S16x512x512_S20000x16x512_1_2_0_01_n_n_wf : DotDims.WF S20000x512 S16x512x512 S20000x16x512 [1] [2] [0] [0, 1] [] []
  gather_S16x20000x512_S160000x2_S160000x512_1_01_n_n_01_1_11512_wf : GatherDims.WF S16x20000x512 S160000x2 S160000x512 [1] [0, 1] [] [0, 1] [] 1 ![1, 1, 512]
  scatter_S20000x512_S160000x1_S160000x512_1_0_0_1_wf : ScatterDims.WF S20000x512 S160000x1 S160000x512 [1] [0] [0] 1

variable [Facts₀]

def dot_S20000x512_S512x512_S20000x512_1_0_0_1_n_n : DotDims S20000x512 S512x512 S20000x512 where
  lhsContracting := [1]
  rhsContracting := [0]
  lhsNonContracting := [0]
  rhsNonContracting := [1]
  lhsBatch := []
  rhsBatch := []
  wf := dot_S20000x512_S512x512_S20000x512_1_0_0_1_n_n_wf
def dot_S20000x512_S16x512x512_S20000x16x512_1_2_0_01_n_n : DotDims S20000x512 S16x512x512 S20000x16x512 where
  lhsContracting := [1]
  rhsContracting := [2]
  lhsNonContracting := [0]
  rhsNonContracting := [0, 1]
  lhsBatch := []
  rhsBatch := []
  wf := dot_S20000x512_S16x512x512_S20000x16x512_1_2_0_01_n_n_wf
def gather_S16x20000x512_S160000x2_S160000x512_1_01_n_n_01_1_11512 : GatherDims S16x20000x512 S160000x2 S160000x512 where
  offsetDims := [1]
  collapsedSliceDims := [0, 1]
  operandBatchingDims := []
  startIndicesBatchingDims := []
  startIndexMap := [0, 1]
  indexVectorDim := 1
  sliceSizes := ![1, 1, 512]
  wf := gather_S16x20000x512_S160000x2_S160000x512_1_01_n_n_01_1_11512_wf
def scatter_S20000x512_S160000x1_S160000x512_1_0_0_1 : ScatterDims S20000x512 S160000x1 S160000x512 where
  updateWindowDims := [1]
  insertedWindowDims := [0]
  scatterDimsToOperandDims := [0]
  indexVectorDim := 1
  wf := scatter_S20000x512_S160000x1_S160000x512_1_0_0_1_wf

class Facts : Prop extends Facts₀ where

variable [Facts]
-- ==== Proof.LibDotSingle.lean ====
/-
  A matrix product with ONE contracted axis, read at an index of the result, over the extended reals.

  Whatever the ranks of the operands and whichever axes are contracted, once the contracted axis has extent `K` and the
  operand indices at the `k`-th contraction coordinate are known (`li k`, `ri k`), the product into a zero accumulator
  is the finite sum `∑ k, x (li k) * w (ri k)`: the accumulator contributes `0`, and the one-axis contraction index is
  its coordinate.
-/
import Idealize.ShloMosaic.Lib.ValueIdx
import Idealize.ShloMosaic.PureOps.Ideal.Laws

namespace Cert.LibDotSingle

open Idealize.ShloMosaic Idealize.ShloMosaic.ValueIdx

/-- A `tpu.matmul` into the zero accumulator whose dimension numbers contract one axis of extent `K`, at the result
    index `j`, is the sum over `k : Fin K` of the left operand at `li k` times the right operand at `ri k`, where
    `li`, `ri` name the operand indices the dimension numbers give at contraction coordinate `k`. -/
theorem matmul_zero_apply {sl sr so : Shape} {φ₁ φ₂ : FTy} (d : DotDims sl sr so) (K : ℕ)
    (hr : d.contr.rank = 1) (hs : d.contr.size ⟨0, by omega⟩ = K) (prec : Option ContractPrecision)
    (x : FVec Ideal sl φ₁) (w : FVec Ideal sr φ₂) (j : so.Idx) (li : Fin K → sl.Idx) (ri : Fin K → sr.Idx)
    (hl : ∀ k, d.lhsIdx j ((contrEquiv1 d K hr hs).symm k) = li k)
    (hri : ∀ k, d.rhsIdx j ((contrEquiv1 d K hr hs).symm k) = ri k) :
    matmul d prec x w (constant (F := Ideal) so .f32 0x00000000#32) j = ∑ k : Fin K, x (li k) * w (ri k) := by
  refine (Ideal.matmul_constant_zero_apply d prec x w j).trans ?_
  refine (Equiv.sum_comp (contrEquiv1 d K hr hs).symm _).symm.trans ?_
  exact Finset.sum_congr rfl fun k _ => by rw [hl k, hri k]

end Cert.LibDotSingle
-- ==== Proof.Slab.lean ====
/-
  One relation's slab of the output block.

  The kernel body computes, for each of the 17 relations r, the product of the staged row tile x (400 rows of 512
  features) with the r-th weight matrix (features in, features out), adds the r-th bias row to every row, and stores
  the result as slab r of the output block. `slab` is that computation for one relation, as a function of the row
  tile, the one-matrix piece of the weights and the one-row piece of the biases; every stored payload of the body is
  `slab` of its loads, and at the extended reals `slab x w b` at (u, p, q) is  ∑ k, x (p, k) · w (0, k, q)  +  b (0, q).
-/
import proofs.«149958_j68178310857464_1_alg».proof.Proof.Gen.KernelIdeal.Skeleton
import proofs.«149958_j68178310857464_1_alg».proof.Proof.LibDotSingle
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Slab

open Idealize.ShloMosaic Idealize.ShloMosaic.ValueIdx Cert.KernelIdeal Cert.KernelIdeal.Gen

variable {F : FTy → Type} [FloatOps F]

/-- One relation's slab: the row tile times the relation's weight matrix, plus the relation's bias on every row. -/
def slab (x : Vec F S400x512 .bf16) (w : Vec F S1x512x512 .bf16) (b : Vec F S1x512 .f32) : FVec F S1x400x512 .bf16 :=
  shapeCast S1x400x512
    (truncf .bf16
      (addf
        (matmul dot_S400x512_S512x512_S400x512_1_0_0_1_n_n none (shapeCast S400x512 x shapeCasts_S400x512_S400x512)
          (shapeCast S512x512 w shapeCasts_S1x512x512_S512x512) (constant S400x512 .f32 0x00000000#32))
        (broadcastTo S400x512 (shapeCast S1x512 (shapeCast S512 b shapeCasts_S1x512_S512) shapeCasts_S512_S1x512)
          broadcasts_S1x512_S400x512))
      bitsLt_bf16_f32)
    shapeCasts_S400x512_S1x400x512

/-! Each stored payload of the body is `slab` of the row tile and of the relation's pieces. -/

theorem pay_r0 (x0 : Vec F S400x512 .bf16) (w : Vec F S1x512x512 .bf16) (b : Vec F S1x512 .f32) :
    k0_pay3 x0 w b = slab x0 w b := rfl
theorem pay_r1 (x0 : Vec F S400x512 .bf16) (w : Vec F S1x512x512 .bf16) (b : Vec F S1x512 .f32) :
    k0_pay4 x0 w b = slab x0 w b := rfl
theorem pay_r2 (x0 : Vec F S400x512 .bf16) (w : Vec F S1x512x512 .bf16) (b : Vec F S1x512 .f32) :
    k0_pay7 (k0_pay5 b) (k0_pay6 x0 w) = slab x0 w b := rfl
theorem pay_r3 (x0 : Vec F S400x512 .bf16) (w : Vec F S1x512x512 .bf16) (b : Vec F S1x512 .f32) :
    k0_pay8 (k0_pay2 x0) w b = slab x0 w b := rfl
theorem pay_r4 (x0 : Vec F S400x512 .bf16) (w : Vec F S1x512x512 .bf16) (b : Vec F S1x512 .f32) :
    k0_pay9 (k0_pay2 x0) w b = slab x0 w b := rfl
theorem pay_r5 (x0 : Vec F S400x512 .bf16) (w : Vec F S1x512x512 .bf16) (b : Vec F S1x512 .f32) :
    k0_pay11 (k0_pay2 x0) (k0_pay10 w) b = slab x0 w b := rfl
theorem pay_r6 (x0 : Vec F S400x512 .bf16) (w : Vec F S1x512x512 .bf16) (b : Vec F S1x512 .f32) :
    k0_pay12 (k0_pay2 x0) w b = slab x0 w b := rfl
theorem pay_r7 (x0 : Vec F S400x512 .bf16) (w : Vec F S1x512x512 .bf16) (b : Vec F S1x512 .f32) :
    k0_pay13 (k0_pay2 x0) w b = slab x0 w b := rfl
theorem pay_r8 (x0 : Vec F S400x512 .bf16) (w : Vec F S1x512x512 .bf16) (b : Vec F S1x512 .f32) :
    k0_pay14 (k0_pay2 x0) w b = slab x0 w b := rfl
theorem pay_r9 (x0 : Vec F S400x512 .bf16) (w : Vec F S1x512x512 .bf16) (b : Vec F S1x512 .f32) :
    k0_pay15 (k0_pay2 x0) w b = slab x0 w b := rfl
theorem pay_r10 (x0 : Vec F S400x512 .bf16) (w : Vec F S1x512x512 .bf16) (b : Vec F S1x512 .f32) :
    k0_pay17 (k0_pay16 (k0_pay2 x0) w b) = slab x0 w b := rfl
theorem pay_r11 (x0 : Vec F S400x512 .bf16) (w : Vec F S1x512x512 .bf16) (b : Vec F S1x512 .f32) :
    k0_pay18 (k0_pay2 x0) w b = slab x0 w b := rfl
theorem pay_r12 (x0 : Vec F S400x512 .bf16) (w : Vec F S1x512x512 .bf16) (b : Vec F S1x512 .f32) :
    k0_pay19 (k0_pay2 x0) w b = slab x0 w b := rfl
theorem pay_r13 (x0 : Vec F S400x512 .bf16) (w : Vec F S1x512x512 .bf16) (b : Vec F S1x512 .f32) :
    k0_pay22 (k0_pay2 x0) (k0_pay20 w) (k0_pay21 b) = slab x0 w b := rfl
theorem pay_r14 (x0 : Vec F S400x512 .bf16) (w : Vec F S1x512x512 .bf16) (b : Vec F S1x512 .f32) :
    k0_pay23 (k0_pay2 x0) w b = slab x0 w b := rfl
theorem pay_r15 (x0 : Vec F S400x512 .bf16) (w : Vec F S1x512x512 .bf16) (b : Vec F S1x512 .f32) :
    k0_pay24 (k0_pay2 x0) w b = slab x0 w b := rfl
theorem pay_r16 (x0 : Vec F S400x512 .bf16) (w : Vec F S1x512x512 .bf16) (b : Vec F S1x512 .f32) :
    k0_pay1 (k0_pay2 x0) w b = slab x0 w b := rfl

/-! ## The slab at an index, over the extended reals -/

/-- The contraction index of the body's matrix product is its one coordinate: the left operand is read at row p,
    column k, the right at row k, column q. -/
theorem dot_lhs (p : Fin 400) (q : Fin 512) (k : Fin 512) :
    dot_S400x512_S512x512_S400x512_1_0_0_1_n_n.lhsIdx (ix2 p q)
      ((contrEquiv1 dot_S400x512_S512x512_S400x512_1_0_0_1_n_n 512 rfl rfl).symm k) = ix2 p k := by
  have hk := contrEquiv1_symm_val dot_S400x512_S512x512_S400x512_1_0_0_1_n_n 512 rfl rfl k
  funext a
  apply Fin.ext
  match a with
  | ⟨0, _⟩ => rfl
  | ⟨1, _⟩ => exact hk

theorem dot_rhs (p : Fin 400) (q : Fin 512) (k : Fin 512) :
    dot_S400x512_S512x512_S400x512_1_0_0_1_n_n.rhsIdx (ix2 p q)
      ((contrEquiv1 dot_S400x512_S512x512_S400x512_1_0_0_1_n_n 512 rfl rfl).symm k) = ix2 k q := by
  have hk := contrEquiv1_symm_val dot_S400x512_S512x512_S400x512_1_0_0_1_n_n 512 rfl rfl k
  funext a
  apply Fin.ext
  match a with
  | ⟨0, _⟩ => exact hk
  | ⟨1, _⟩ => rfl

/-- Over the extended reals the slab at (u, p, q) is the row p of the tile against column q of the relation's matrix,
    plus the bias at q. -/
theorem slab_apply (x : FVec Ideal S400x512 .bf16) (w : FVec Ideal S1x512x512 .bf16) (b : FVec Ideal S1x512 .f32)
    (u : Fin 1) (p : Fin 400) (q : Fin 512) :
    slab (F := Ideal) x w b (ix3 u p q)
      = (∑ k : Fin 512, x (ix2 p k) * w (ix3 (0 : Fin 1) k q)) + b (ix2 (0 : Fin 1) q) := by
  unfold slab
  rw [shapeCast_ab_1ab_apply]
  rw [truncf_apply, addf_apply]
  rw [Cert.LibDotSingle.matmul_zero_apply dot_S400x512_S512x512_S400x512_1_0_0_1_n_n 512 rfl rfl none _ _ (ix2 p q)
    (fun k => ix2 p k) (fun k => ix2 k q) (dot_lhs p q) (dot_rhs p q)]
  rw [broadcastTo_1b_ab_apply, shapeCast_a_1a_apply, shapeCast_1a_a_apply, shapeCast_self]
  refine congrArg (· + _) (Finset.sum_congr rfl fun k _ => ?_)
  rw [shapeCast_1ab_ab_apply]

end Cert.KernelIdeal.Slab

end
-- ==== Proof.Block.lean ====
/-
  The output block as one function of the staged blocks.

  After the body, the output window's staging buffer (17 slabs of 400 rows by 512 features) holds, at slab r, row p,
  feature q, the row p of the staged row tile against column q of the r-th staged weight matrix, plus the r-th staged
  bias at q: each of the body's 17 stores writes slab r whole, and the slabs tile the buffer.
-/
import proofs.«149958_j68178310857464_1_alg».proof.Proof.Gen.KernelIdeal.Frame
import proofs.«149958_j68178310857464_1_alg».proof.Proof.Slab

set_option maxRecDepth 16384

noncomputable section

namespace Cert.KernelIdeal.Block

open Idealize.ShloMosaic Idealize.ShloMosaic.ValueIdx Cert.KernelIdeal Cert.KernelIdeal.Gen Cert.KernelIdeal.Slab

/-- Row p of a row tile against column q of relation r's matrix, plus relation r's bias at q. -/
def rowLin {N : ℕ} (x0 : (⟨2, ![N, 512]⟩ : Shape).Idx → EReal) (x1 : (⟨3, ![17, 512, 512]⟩ : Shape).Idx → EReal)
    (x2 : (⟨2, ![17, 512]⟩ : Shape).Idx → EReal) (r : Fin 17) (p : Fin N) (q : Fin 512) : EReal :=
  (∑ k : Fin 512, x0 (ix2 p k) * x1 (ix3 r k q)) + x2 (ix2 r q)

/-- The output block: `rowLin` of the three staged blocks at the index's coordinates. -/
def blockFn (x0 : Vec Ideal S400x512 .bf16) (x1 : Vec Ideal S17x512x512 .bf16) (x2 : Vec Ideal S17x512 .f32) :
    Vec Ideal S17x400x512 .bf16 :=
  fun y => rowLin (N := 400) x0 x1 x2 ⟨(y 0).val, (y 0).isLt⟩ ⟨(y 1).val, (y 1).isLt⟩ ⟨(y 2).val, (y 2).isLt⟩

theorem hz2 : (![0, 0] : Fin 2 → Nat) = fun _ => 0 := funext fun a => by fin_cases a <;> rfl

/-- The r-th one-matrix piece of the staged weights, at (u, k, q), is the weights at (r, k, q). -/
theorem ld_w (x1 : Vec Ideal S17x512x512 .bf16) (r : ℕ) (hr : r < 17)
    (inb : ∀ a, (![r, 0, 0] : Fin 3 → Nat) a + S1x512x512.size a ≤ S17x512x512.size a) (u : Fin 1) (k q : Fin 512) :
    View.ld (Val := Elt Ideal) x1 (Rect.unit (s := S17x512x512) ![r, 0, 0] S1x512x512.size inb) (ix3 u k q) = x1 (ix3 ⟨r, hr⟩ k q) := by
  show x1 _ = x1 _
  refine congrArg x1 (funext fun a => Fin.ext ?_)
  match a with
  | ⟨0, _⟩ => show r + 1 * u.val = r; omega
  | ⟨1, _⟩ => show 0 + 1 * k.val = k.val; omega
  | ⟨2, _⟩ => show 0 + 1 * q.val = q.val; omega

/-- The r-th one-row piece of the staged biases, at (u, q), is the biases at (r, q). -/
theorem ld_b (x2 : Vec Ideal S17x512 .f32) (r : ℕ) (hr : r < 17)
    (inb : ∀ a, (![r, 0] : Fin 2 → Nat) a + S1x512.size a ≤ S17x512.size a) (u : Fin 1) (q : Fin 512) :
    View.ld (Val := Elt Ideal) x2 (Rect.unit (s := S17x512) ![r, 0] S1x512.size inb) (ix2 u q) = x2 (ix2 ⟨r, hr⟩ q) := by
  show x2 _ = x2 _
  refine congrArg x2 (funext fun a => Fin.ext ?_)
  match a with
  | ⟨0, _⟩ => show r + 1 * u.val = r; omega
  | ⟨1, _⟩ => show 0 + 1 * q.val = q.val; omega

/-- Slab r of the block, stored through the r-th one-slab rectangle, is the block's function there. -/
theorem piece (x0 : Vec Ideal S400x512 .bf16) (x1 : Vec Ideal S17x512x512 .bf16) (x2 : Vec Ideal S17x512 .f32)
    (r : ℕ) (hr : r < 17)
    (inbW : ∀ a, (![r, 0, 0] : Fin 3 → Nat) a + S1x512x512.size a ≤ S17x512x512.size a)
    (inbB : ∀ a, (![r, 0] : Fin 2 → Nat) a + S1x512.size a ≤ S17x512.size a)
    (inbO : ∀ a, (![r, 0, 0] : Fin 3 → Nat) a + S1x400x512.size a ≤ S17x400x512.size a)
    (x : S1x400x512.Idx) :
    slab (F := Ideal) (View.ld (Val := Elt Ideal) x0 r0_0) (View.ld (Val := Elt Ideal) x1 (Rect.unit (s := S17x512x512) ![r, 0, 0] S1x512x512.size inbW))
        (View.ld (Val := Elt Ideal) x2 (Rect.unit (s := S17x512) ![r, 0] S1x512.size inbB)) x
      = blockFn x0 x1 x2 ((Rect.unit (s := S17x400x512) ![r, 0, 0] S1x400x512.size inbO).emb x) := by
  obtain ⟨u, p, q, rfl⟩ : ∃ (u : Fin 1) (p : Fin 400) (q : Fin 512), x = ix3 u p q := ⟨x 0, x 1, x 2, eq_ix3 x⟩
  have hu : u.val = 0 := by omega
  rw [slab_apply, ld_b x2 r hr inbB, View.ld_unit_zero (S := S400x512) hz2]
  have he : (Rect.unit (s := S17x400x512) ![r, 0, 0] S1x400x512.size inbO).emb (ix3 u p q)
      = (ix3 (⟨r, hr⟩ : Fin 17) p q : S17x400x512.Idx) := by
    funext a
    apply Fin.ext
    match a with
    | ⟨0, _⟩ => show r + 1 * u.val = r; omega
    | ⟨1, _⟩ => show 0 + 1 * p.val = p.val; omega
    | ⟨2, _⟩ => show 0 + 1 * q.val = q.val; omega
  rw [he]
  show _ = rowLin (N := 400) x0 x1 x2 ⟨r, hr⟩ p q
  unfold rowLin
  refine congrArg (· + _) (Finset.sum_congr rfl fun k _ => ?_)
  rw [ld_w x1 r hr inbW]

/-- The output window's staging buffer after the body, at any index, is the block's function of the staged blocks. -/
theorem out_apply (x0 : Vec Ideal S400x512 .bf16) (x1 : Vec Ideal S17x512x512 .bf16) (x2 : Vec Ideal S17x512 .f32)
    (y : S17x400x512.Idx) : out0_3 (F := Ideal) x0 x1 x2 y = blockFn x0 x1 x2 y := by
  unfold out0_3
  refine View.canon_apply_of_pieces (blockFn x0 x1 x2) _ ?_ y (cover0_3 _ _ _ _ _ _ _ _ _ _ _ _ _ _ _ _ _ y)
  intro pc hpc x
  simp only [List.mem_cons, List.mem_nil_iff, or_false] at hpc
  rcases hpc with rfl | rfl | rfl | rfl | rfl | rfl | rfl | rfl | rfl | rfl | rfl | rfl | rfl | rfl | rfl | rfl | rfl
  · exact (congrFun (pay_r16 _ _ _) x).trans (piece x0 x1 x2 16 (by omega) inb_S17x512x512_S1x512x512_16_0_0 inb_S17x512_S1x512_16_0 inb_S17x400x512_S1x400x512_16_0_0 x)
  · exact (congrFun (pay_r15 _ _ _) x).trans (piece x0 x1 x2 15 (by omega) inb_S17x512x512_S1x512x512_15_0_0 inb_S17x512_S1x512_15_0 inb_S17x400x512_S1x400x512_15_0_0 x)
  · exact (congrFun (pay_r14 _ _ _) x).trans (piece x0 x1 x2 14 (by omega) inb_S17x512x512_S1x512x512_14_0_0 inb_S17x512_S1x512_14_0 inb_S17x400x512_S1x400x512_14_0_0 x)
  · exact (congrFun (pay_r13 _ _ _) x).trans (piece x0 x1 x2 13 (by omega) inb_S17x512x512_S1x512x512_13_0_0 inb_S17x512_S1x512_13_0 inb_S17x400x512_S1x400x512_13_0_0 x)
  · exact (congrFun (pay_r12 _ _ _) x).trans (piece x0 x1 x2 12 (by omega) inb_S17x512x512_S1x512x512_12_0_0 inb_S17x512_S1x512_12_0 inb_S17x400x512_S1x400x512_12_0_0 x)
  · exact (congrFun (pay_r11 _ _ _) x).trans (piece x0 x1 x2 11 (by omega) inb_S17x512x512_S1x512x512_11_0_0 inb_S17x512_S1x512_11_0 inb_S17x400x512_S1x400x512_11_0_0 x)
  · exact (congrFun (pay_r10 _ _ _) x).trans (piece x0 x1 x2 10 (by omega) inb_S17x512x512_S1x512x512_10_0_0 inb_S17x512_S1x512_10_0 inb_S17x400x512_S1x400x512_10_0_0 x)
  · exact (congrFun (pay_r9 _ _ _) x).trans (piece x0 x1 x2 9 (by omega) inb_S17x512x512_S1x512x512_9_0_0 inb_S17x512_S1x512_9_0 inb_S17x400x512_S1x400x512_9_0_0 x)
  · exact (congrFun (pay_r8 _ _ _) x).trans (piece x0 x1 x2 8 (by omega) inb_S17x512x512_S1x512x512_8_0_0 inb_S17x512_S1x512_8_0 inb_S17x400x512_S1x400x512_8_0_0 x)
  · exact (congrFun (pay_r7 _ _ _) x).trans (piece x0 x1 x2 7 (by omega) inb_S17x512x512_S1x512x512_7_0_0 inb_S17x512_S1x512_7_0 inb_S17x400x512_S1x400x512_7_0_0 x)
  · exact (congrFun (pay_r6 _ _ _) x).trans (piece x0 x1 x2 6 (by omega) inb_S17x512x512_S1x512x512_6_0_0 inb_S17x512_S1x512_6_0 inb_S17x400x512_S1x400x512_6_0_0 x)
  · exact (congrFun (pay_r5 _ _ _) x).trans (piece x0 x1 x2 5 (by omega) inb_S17x512x512_S1x512x512_5_0_0 inb_S17x512_S1x512_5_0 inb_S17x400x512_S1x400x512_5_0_0 x)
  · exact (congrFun (pay_r4 _ _ _) x).trans (piece x0 x1 x2 4 (by omega) inb_S17x512x512_S1x512x512_4_0_0 inb_S17x512_S1x512_4_0 inb_S17x400x512_S1x400x512_4_0_0 x)
  · exact (congrFun (pay_r3 _ _ _) x).trans (piece x0 x1 x2 3 (by omega) inb_S17x512x512_S1x512x512_3_0_0 inb_S17x512_S1x512_3_0 inb_S17x400x512_S1x400x512_3_0_0 x)
  · exact (congrFun (pay_r2 _ _ _) x).trans (piece x0 x1 x2 2 (by omega) inb_S17x512x512_S1x512x512_2_0_0 inb_S17x512_S1x512_2_0 inb_S17x400x512_S1x400x512_2_0_0 x)
  · exact (congrFun (pay_r1 _ _ _) x).trans (piece x0 x1 x2 1 (by omega) inb_S17x512x512_S1x512x512_1_0_0 inb_S17x512_S1x512_1_0 inb_S17x400x512_S1x400x512_1_0_0 x)
  · exact (congrFun (pay_r0 _ _ _) x).trans (piece x0 x1 x2 0 (by omega) inb_S17x512x512_S1x512x512_0_0_0 inb_S17x512_S1x512_0_0 inb_S17x400x512_S1x400x512_0_0_0 x)

end Cert.KernelIdeal.Block

end
-- ==== Proof.ArrayValue.lean ====
/-
  From the blocks to the array.

  The grid has 50 points; point t stages rows 400·t … 400·t + 399 of the node features, the whole stack of 17 weight
  matrices and the whole stack of 17 bias rows, and writes back rows 400·t … 400·t + 399 of every one of the 17 slabs of
  the result. What point t writes back is therefore block t of ONE function of the three arrays as the region finds
  them — at (r, n, o): row n of the features against column o of matrix r, plus bias r at o — and the 50 blocks tile the
  result, so after the region the result array is that function.
-/
import proofs.«149958_j68178310857464_1_alg».proof.Proof.Gen.KernelIdeal.Frame
import proofs.«149958_j68178310857464_1_alg».proof.Proof.Block
import Idealize.ShloMosaic.Lib.Pipeline.Value

set_option maxRecDepth 16384

noncomputable section

namespace Cert.KernelIdeal.ArrayValue

open Idealize.ShloMosaic Idealize.ShloMosaic.TcCoe Idealize.ShloMosaic.ValueIdx Idealize.SL.Sem
open Cert.KernelIdeal Cert.KernelIdeal.Gen Cert.KernelIdeal.Block
open Idealize.ShloMosaic.Pipeline (Dat Cfg Window)

/-- The result array as one function of the features, the weight stack and the bias stack. -/
def arrFn (X0 : Vec Ideal S20000x512 .bf16) (X1 : Vec Ideal S17x512x512 .bf16) (X2 : Vec Ideal S17x512 .f32) :
    Vec Ideal S17x20000x512 .bf16 :=
  fun i => rowLin (N := 20000) X0 X1 X2 ⟨(i 0).val, (i 0).isLt⟩ ⟨(i 1).val, (i 1).isLt⟩ ⟨(i 2).val, (i 2).isLt⟩

theorem arrFn_ix3 (X0 : Vec Ideal S20000x512 .bf16) (X1 : Vec Ideal S17x512x512 .bf16) (X2 : Vec Ideal S17x512 .f32)
    (r : Fin 17) (n : Fin 20000) (o : Fin 512) : arrFn X0 X1 X2 (ix3 r n o) = rowLin (N := 20000) X0 X1 X2 r n o := rfl

/-- A block whose row tile is rows 400·T … of the features, and whose other two inputs are the whole stacks, is at
    (r, p, q) the array function at (r, 400·T + p, q). -/
theorem block_eq_arr (X0 : Vec Ideal S20000x512 .bf16) (X1 : Vec Ideal S17x512x512 .bf16) (X2 : Vec Ideal S17x512 .f32)
    (x0 : Vec Ideal S400x512 .bf16) (x1 : Vec Ideal S17x512x512 .bf16) (x2 : Vec Ideal S17x512 .f32) (T : ℕ) (hT : T ≤ 49)
    (h0 : ∀ (p : Fin 400) (k : Fin 512), x0 (ix2 p k) = X0 (ix2 ⟨T * 400 + p.val, by have := p.isLt; omega⟩ k))
    (h1 : x1 = X1) (h2 : x2 = X2) (y : S17x400x512.Idx) (i : S17x20000x512.Idx)
    (hi0 : (i 0).val = (y 0).val) (hi1 : (i 1).val = T * 400 + (y 1).val) (hi2 : (i 2).val = (y 2).val) :
    blockFn x0 x1 x2 y = arrFn X0 X1 X2 i := by
  subst h1 h2
  unfold blockFn arrFn rowLin
  have e0 : (⟨(i 0).val, (i 0).isLt⟩ : Fin 17) = ⟨(y 0).val, (y 0).isLt⟩ := Fin.ext hi0
  have e2 : (⟨(i 2).val, (i 2).isLt⟩ : Fin 512) = ⟨(y 2).val, (y 2).isLt⟩ := Fin.ext hi2
  have e1 : (⟨(i 1).val, (i 1).isLt⟩ : Fin 20000)
      = ⟨T * 400 + (⟨(y 1).val, (y 1).isLt⟩ : Fin 400).val, by have := (y 1).isLt; omega⟩ := Fin.ext hi1
  rw [e0, e2, e1]
  refine congrArg (· + _) (Finset.sum_congr rfl fun k _ => ?_)
  rw [h0]

variable (m : (ℓ : Loc nD τ sig) → Buf (Elt Ideal) ℓ)

/-- The printed index maps, decided over the grid: the row tile's and the result's row-block indices are the point's
    one coordinate; every other block index is zero. -/
theorem idx_facts : ∀ t : Fin cfg0.N, win0_0.index t (0 : Fin 2) = win0_3.index t (1 : Fin 3)
    ∧ win0_0.index t (1 : Fin 2) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 3) = 0 ∧ win0_3.index t (2 : Fin 3) = 0
    ∧ win0_3.index t (1 : Fin 3) ≤ 49 :=
  (by decide +kernel : ∀ t : Fin grid0.N, _)

/-- Every row block of the result is some point's. -/
theorem idx_onto : ∀ (q : Fin 50), ∃ t : Fin cfg0.N, win0_3.index t = ![0, q.val, 0] :=
  (by decide +kernel : ∀ (q : Fin 50), ∃ t : Fin grid0.N, win0_3.index t = ![0, q.val, 0])

/-- The row tile staged at point t is rows 400·t … of the features as the region finds them. -/
theorem iblk0_apply (c : Dev nD) (t : Fin cfg0.N) (p : Fin 400) (k : Fin 512) :
    iblk m c 0 t (ix2 p k)
      = V m c main_v0 (ix2 ⟨win0_3.index t (1 : Fin 3) * 400 + p.val, by
          have := (idx_facts t).2.2.2.2.2.2.2.2.2; have := p.isLt; omega⟩ k) := by
  obtain ⟨e0, e1, -⟩ := idx_facts t
  show V m c main_v0 (((cfg0.win 0).blk t).view.emb (ix2 p k)) = V m c main_v0 _
  refine congrArg (V m c main_v0) (funext fun a => Fin.ext ?_)
  match a with
  | ⟨0, _⟩ => show win0_0.index t (0 : Fin 2) * 400 + 1 * p.val = win0_3.index t (1 : Fin 3) * 400 + p.val; omega
  | ⟨1, _⟩ => show win0_0.index t (1 : Fin 2) * 512 + 1 * k.val = k.val; omega

/-- The weight stack staged at any point is the whole stack. -/
theorem iblk1_eq (c : Dev nD) (t : Fin cfg0.N) : iblk m c 1 t = V m c main_v6 := by
  obtain ⟨-, -, e0, e1, e2, -⟩ := idx_facts t
  funext y
  show V m c main_v6 (((cfg0.win 1).blk t).view.emb y) = V m c main_v6 y
  refine congrArg (V m c main_v6) (funext fun a => Fin.ext ?_)
  match a with
  | ⟨0, _⟩ => show win0_1.index t (0 : Fin 3) * 17 + 1 * (y 0).val = (y 0).val; omega
  | ⟨1, _⟩ => show win0_1.index t (1 : Fin 3) * 512 + 1 * (y 1).val = (y 1).val; omega
  | ⟨2, _⟩ => show win0_1.index t (2 : Fin 3) * 512 + 1 * (y 2).val = (y 2).val; omega

/-- The bias stack staged at any point is the whole stack. -/
theorem iblk2_eq (c : Dev nD) (t : Fin cfg0.N) : iblk m c 2 t = V m c main_v4 := by
  obtain ⟨-, -, -, -, -, e0, e1, -⟩ := idx_facts t
  funext y
  show V m c main_v4 (((cfg0.win 2).blk t).view.emb y) = V m c main_v4 y
  refine congrArg (V m c main_v4) (funext fun a => Fin.ext ?_)
  match a with
  | ⟨0, _⟩ => show win0_2.index t (0 : Fin 2) * 17 + 1 * (y 0).val = (y 0).val; omega
  | ⟨1, _⟩ => show win0_2.index t (1 : Fin 2) * 512 + 1 * (y 1).val = (y 1).val; omega

/-- WHAT POINT t WRITES BACK is block t of the array function of the arrays as the region finds them. -/
theorem flushed_eq (c : Dev nD) (t : Fin cfg0.N) :
    (dats m 0 c).flushed 3 t
      = ((cfg0.win 3).blk t).view.read (Elt Ideal) (arrFn (V m c main_v0) (V m c main_v6) (V m c main_v4)) := by
  show (cfg0.win 3).cut (grid0.coords t) ((dats m 0 c).after 3 t) = _
  rw [after0_3]
  obtain ⟨-, -, -, -, -, -, -, e0, e2, hT⟩ := idx_facts t
  funext j
  show out0_3 (F := Ideal) (iblk m c 0 t) (iblk m c 1 t) (iblk m c 2 t) j
    = arrFn (V m c main_v0) (V m c main_v6) (V m c main_v4) (((cfg0.win 3).blk t).view.emb j)
  refine (out_apply _ _ _ j).trans ?_
  refine block_eq_arr (V m c main_v0) (V m c main_v6) (V m c main_v4) _ _ _ (win0_3.index t (1 : Fin 3)) hT
    (iblk0_apply m c t) (iblk1_eq m c t) (iblk2_eq m c t) j _ ?_ ?_ ?_
  · show win0_3.index t (0 : Fin 3) * 17 + 1 * (j 0).val = (j 0).val; omega
  · show win0_3.index t (1 : Fin 3) * 400 + 1 * (j 1).val = win0_3.index t (1 : Fin 3) * 400 + (j 1).val; omega
  · show win0_3.index t (2 : Fin 3) * 512 + 1 * (j 2).val = (j 2).val; omega

/-- An index of the result is in point t's block iff each coordinate is in the block's range on its axis. -/
theorem mem_blk (t : Fin cfg0.N) (i : S17x20000x512.Idx) :
    i ∈ ((cfg0.win 3).blk t).view.set ↔ ∀ a : Fin 3, win0_3.index t a * S17x400x512.size a ≤ (i a).val
      ∧ (i a).val < win0_3.index t a * S17x400x512.size a + S17x400x512.size a := by
  show i ∈ ((View.whole main_v7).slice (win0_3.rect t)).set ↔ _
  rw [View.set_slice_whole, Rect.mem_set_unit]
  exact Iff.rfl

/-- The 50 blocks tile the result: row n of any slab is in the block of point n / 400. -/
theorem cover (i : S17x20000x512.Idx) :
    ∃ t : Fin cfg0.N, (cfg0.win 3).flush t = true ∧ i ∈ ((cfg0.win 3).blk t).view.set := by
  have hi0 : (i 0).val < 17 := (i 0).isLt
  have hi1 : (i 1).val < 20000 := (i 1).isLt
  have hi2 : (i 2).val < 512 := (i 2).isLt
  obtain ⟨t, ht⟩ := idx_onto ⟨(i 1).val / 400, by omega⟩
  have q0 : win0_3.index t (0 : Fin 3) = 0 := congrFun ht 0
  have q1 : win0_3.index t (1 : Fin 3) = (i 1).val / 400 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 17 ≤ (i 0).val ∧ (i 0).val < win0_3.index t (0 : Fin 3) * 17 + 17; omega
  | ⟨1, _⟩ => show win0_3.index t (1 : Fin 3) * 400 ≤ (i 1).val ∧ (i 1).val < win0_3.index t (1 : Fin 3) * 400 + 400; omega
  | ⟨2, _⟩ => show win0_3.index t (2 : Fin 3) * 512 ≤ (i 2).val ∧ (i 2).val < win0_3.index t (2 : Fin 3) * 512 + 512; omega

/-- THE RESULT ARRAY after the region is the array function of the three arrays as the region finds them. -/
theorem final (c : Dev nD) :
    (dats m 0 c).arrAt 3 cfg0.N = arrFn (V m c main_v0) (V m c main_v6) (V m c main_v4) :=
  (dats m 0 c).arrAt_eq_of_cover 3 _ (fun t _ => flushed_eq m c t) cover

end Cert.KernelIdeal.ArrayValue

end
-- ==== Proof.RefValue.lean ====
/-
  The reference's value, read off its run.

  The reference computes, from the node features X, the self weights and bias, the 16 relation weights and biases and
  the three edge arrays, first the self transform  hs (n, o) = ∑ k, X (n, k) · Wself (o, k) + bself (o)  and the table of
  relation transforms  H (r, n, o) = ∑ k, X (n, k) · Wrel (r, o, k) + brel (r, o),  and then a chain of host operations
  that reads H and hs only as whole arrays: two gathers of rows of H at indices computed from the edge arrays, two
  scatter-adds of the gathered rows into zero arrays, the sums, and a maximum with zero. `tail` names that chain as one
  function of H, hs and the edge arrays; it is never opened.
-/
import proofs.«149958_j68178310857464_1_alg».proof.Proof.Gen.ReferenceIdeal.Run
import proofs.«149958_j68178310857464_1_alg».proof.Proof.Gen.ReferenceIdeal.Read
import Idealize.ShloMosaic.Lib.ValueIdx

noncomputable section

namespace Cert.ReferenceIdeal.RefValue

open Cert.ReferenceIdeal Cert.ReferenceIdeal.Gen Cert.ReferenceIdeal.Read
open Idealize.ShloMosaic Idealize.ShloMosaic.ValueIdx

/-- What the reference does with the relation table `H` and the self transform `hs`: gather the rows of `H` each
    edge names (relation and tail node, then reverse relation and head node), add them up per head node and per tail
    node, add both sums to `hs`, and take the maximum with zero. -/
def tail (H : FVec Ideal S16x20000x512 .f32) (hs : FVec Ideal S20000x512 .f32)
    (x1 x2 x3 : IVec S160000 32) : FVec Ideal S20000x512 .f32 :=
  maximumf (F := Ideal)
    (addf (F := Ideal) hs
      (addf (F := Ideal)
        (Host.scatterAdd (F := Ideal) scatter_S20000x512_S160000x1_S160000x512_1_0_0_1 (val_main_v40 (F := Ideal)) (val_main_v41 (F := Ideal) x1)
          (Host.gather gather_S16x20000x512_S160000x2_S160000x512_1_01_n_n_01_1_11512 H (val_main_v22 (F := Ideal) x2 x3)))
        (Host.scatterAdd (F := Ideal) scatter_S20000x512_S160000x1_S160000x512_1_0_0_1 (val_main_v43 (F := Ideal)) (val_main_v44 (F := Ideal) x2)
          (Host.gather gather_S16x20000x512_S160000x2_S160000x512_1_01_n_n_01_1_11512 H (val_main_v38 (F := Ideal) x1 x3)))))
    (val_main_call0_v0 (F := Ideal))

/-- The reference's result is `tail` of its relation table and its self transform. -/
theorem result_eq_tail (x0 : (⟨S20000x512, .f32⟩ : BufTy).Contents (Elt Ideal)) (x1 x2 x3 : (⟨S160000, .i32⟩ : BufTy).Contents (Elt Ideal))
    (x4 : (⟨S512x512, .f32⟩ : BufTy).Contents (Elt Ideal)) (x5 : (⟨S512, .f32⟩ : BufTy).Contents (Elt Ideal))
    (x6 : (⟨S16x512x512, .f32⟩ : BufTy).Contents (Elt Ideal)) (x7 : (⟨S16x512, .f32⟩ : BufTy).Contents (Elt Ideal)) :
    val_main_v48 (F := Ideal) x0 x1 x2 x3 x4 x5 x6 x7
      = tail (val_main_v9 (F := Ideal) x0 x6 x7) (val_main_v4 (F := Ideal) x0 x4 x5) x1 x2 x3 := by
  unfold val_main_v48 val_main_v47 val_main_v46 val_main_v42 val_main_v45 val_main_v23 val_main_v39 tail
  rfl

/-- The relation table at (r, n, o): row n of the features against row r, o of the relation weights, plus the
    relation bias at (r, o). -/
theorem H_apply (x0 : (⟨S20000x512, .f32⟩ : BufTy).Contents (Elt Ideal)) (x6 : (⟨S16x512x512, .f32⟩ : BufTy).Contents (Elt Ideal))
    (x7 : (⟨S16x512, .f32⟩ : BufTy).Contents (Elt Ideal)) (r : Fin 16) (n : Fin 20000) (o : Fin 512) :
    val_main_v9 (F := Ideal) x0 x6 x7 (ix3 r n o) = (∑ k : Fin 512, x0 (ix2 n k) * x6 (ix3 r o k)) + x7 (ix2 r o) := by
  rw [val_main_v9_apply, val_main_v6_apply, val_main_v5_apply, val_main_v8_apply, val_main_v7_apply]
  have e7 : idx_main_v7 (idx_main_v8 (ix3 r n o)) = ix2 r o :=
    funext fun a => Fin.ext (by match a with | ⟨0, _⟩ => rfl | ⟨1, _⟩ => rfl)
  rw [e7]
  show (∑ k : Fin 512, _) + _ = _
  refine congrArg (· + _) (Finset.sum_congr rfl fun k _ => ?_)
  have el : lidx_main_v5 (idx_main_v6 (ix3 r n o)) k = ix2 n k :=
    funext fun a => Fin.ext (by match a with | ⟨0, _⟩ => rfl | ⟨1, _⟩ => rfl)
  have er : ridx_main_v5 (idx_main_v6 (ix3 r n o)) k = ix3 r o k :=
    funext fun a => Fin.ext (by match a with | ⟨0, _⟩ => rfl | ⟨1, _⟩ => rfl | ⟨2, _⟩ => rfl)
  rw [el, er]

/-- The self transform at (n, o): row n of the features against row o of the self weights, plus the self bias at o. -/
theorem hs_apply (x0 : (⟨S20000x512, .f32⟩ : BufTy).Contents (Elt Ideal)) (x4 : (⟨S512x512, .f32⟩ : BufTy).Contents (Elt Ideal))
    (x5 : (⟨S512, .f32⟩ : BufTy).Contents (Elt Ideal)) (n : Fin 20000) (o : Fin 512) :
    val_main_v4 (F := Ideal) x0 x4 x5 (ix2 n o) = (∑ k : Fin 512, x0 (ix2 n k) * x4 (ix2 o k)) + x5 (ix1 o) := by
  rw [val_main_v4_apply, val_main_v1_apply, val_main_v3_apply, val_main_v2_apply]
  have e3 : idx_main_v2 (idx_main_v3 (ix2 n o)) = ix1 o :=
    funext fun a => Fin.ext (by match a with | ⟨0, _⟩ => rfl)
  rw [e3]
  show (∑ k : Fin 512, _) + _ = _
  refine congrArg (· + _) (Finset.sum_congr rfl fun k _ => ?_)
  rw [val_main_v0_apply]
  have el : lidx_main_v1 (ix2 n o) k = ix2 n k :=
    funext fun a => Fin.ext (by match a with | ⟨0, _⟩ => rfl | ⟨1, _⟩ => rfl)
  have er : idx_main_v0 (ridx_main_v1 (ix2 n o) k) = ix2 o k :=
    funext fun a => Fin.ext (by match a with | ⟨0, _⟩ => rfl | ⟨1, _⟩ => rfl)
  rw [el, er]

end Cert.ReferenceIdeal.RefValue

end
-- ==== Proof.TailOps.lean ====
/-
  The host operations after the region, as the reference's chain.

  After the region the kernel's program cuts its result (17 slabs) into slabs 0 … 15, which it uses as the table of
  relation transforms, and slab 16, which it uses (as a matrix) as the self transform; from there on it applies, line
  for line, the operations the reference applies to its own table and self transform. Read at the extended reals,
  where a change of float format is the identity, the two chains are one function.
-/
import proofs.«149958_j68178310857464_1_alg».proof.Proof.Gen.KernelIdeal.Launch
import proofs.«149958_j68178310857464_1_alg».proof.Proof.RefValue
import Idealize.ShloMosaic.Lib.StableHlo.Run
import Idealize.ShloMosaic.PureOps.Ideal.Laws

set_option maxRecDepth 16384

noncomputable section

namespace Cert.KernelIdeal.Tail

open Idealize.ShloMosaic Idealize.ShloMosaic.TcCoe Idealize.SL.Sem Idealize.ShloMosaic.StableHlo
open Cert.KernelIdeal Cert.KernelIdeal.Gen

/-- Slabs 0 … 15 of the kernel's result: what the program uses as the table of relation transforms. -/
def relTable (A : Vec Ideal S17x20000x512 .bf16) : FVec Ideal S16x20000x512 .f32 :=
  extractStridedSlice S16x20000x512 ![0, 0, 0] A slices_S17x20000x512_S16x20000x512_0_0_0

/-- Slab 16 of the kernel's result, as a matrix: what the program uses as the self transform. -/
def selfRows (A : Vec Ideal S17x20000x512 .bf16) : FVec Ideal S20000x512 .f32 :=
  shapeCast S20000x512 (extractStridedSlice S1x20000x512 ![16, 0, 0] A slices_S17x20000x512_S1x20000x512_16_0_0)
    shapeCasts_S1x20000x512_S20000x512

set_option maxHeartbeats 8000000 in
/-- From any contents `W` of the buffers at the region's exit, the operations after the region leave in the result
    buffer the reference's chain applied to slabs 0 … 15 and slab 16 of the kernel's result array and to the edge arrays. -/
theorem tail_after (W : Valuation τ sig (Elt Ideal)) :
    StableHlo.after (hostOps1 ++ hostOps1_1 : List (HloOp τ sig (Elt Ideal))) W (Proc.devRef .tc main_v52)
      = Cert.ReferenceIdeal.RefValue.tail (relTable (W (Proc.devRef .tc main_v7))) (selfRows (W (Proc.devRef .tc main_v7)))
          (W (Proc.devRef .tc main_arg1)) (W (Proc.devRef .tc main_arg2)) (W (Proc.devRef .tc main_arg3)) := by
  simp only [hostOps1, hostOps1_1, List.cons_append, List.nil_append]
  after_results_simp
  rfl

end Cert.KernelIdeal.Tail

end
-- ==== Proof.LibBroadcastInDim.lean ====
/-
  `stablehlo.broadcast_in_dim` in its small keepdims forms, read at an index given by coordinates.

  A vector of length a set as the column [a, 1] (dims [0]) or as the row [1, a] (dims [1]); a column [a, 1] or a row
  [1, b] spread over [a, b] (dims [0, 1]); a scalar spread over any shape (dims []). In each the result at an index
  is the operand at the index with the broadcast axes dropped or set to zero.
-/
import Idealize.ShloMosaic.Lib.Pipeline.Value
import Idealize.ShloMosaic.Lib.ValueIdx

namespace Cert.LibBroadcastInDim

open Idealize.ShloMosaic Idealize.ShloMosaic.ValueIdx

variable {α : Type}

/-- A vector of length `a` set as the column `[a, 1]` reads, at `(p, u)`, the vector at `p`. -/
theorem vec_to_col_apply {a : ℕ} (dims : Fin 1 → Fin 2) (hd : dims 0 = 0)
    (h : (⟨1, ![a]⟩ : Shape).BroadcastsInDim ⟨2, ![a, 1]⟩ dims) (v : (⟨1, ![a]⟩ : Shape).Idx → α) (p : Fin a) (u : Fin 1) :
    broadcastInDim ⟨2, ![a, 1]⟩ dims h v (ix2 p u) = v (ix1 p) := by
  refine broadcastInDim_apply dims h v (ix2 p u) (ix1 p) fun ax => ?_
  match ax with
  | ⟨0, _⟩ =>
    show p.val = if a = 1 then 0 else ((ix2 p u : (⟨2, ![a, 1]⟩ : Shape).Idx) (dims 0)).val
    rw [hd]
    show p.val = if a = 1 then 0 else p.val
    split
    · have := p.isLt; omega
    · rfl

/-- A vector of length `b` set as the row `[1, b]` reads, at `(u, q)`, the vector at `q`. -/
theorem vec_to_row_apply {b : ℕ} (dims : Fin 1 → Fin 2) (hd : dims 0 = 1)
    (h : (⟨1, ![b]⟩ : Shape).BroadcastsInDim ⟨2, ![1, b]⟩ dims) (v : (⟨1, ![b]⟩ : Shape).Idx → α) (u : Fin 1) (q : Fin b) :
    broadcastInDim ⟨2, ![1, b]⟩ dims h v (ix2 u q) = v (ix1 q) := by
  refine broadcastInDim_apply dims h v (ix2 u q) (ix1 q) fun ax => ?_
  match ax with
  | ⟨0, _⟩ =>
    show q.val = if b = 1 then 0 else ((ix2 u q : (⟨2, ![1, b]⟩ : Shape).Idx) (dims 0)).val
    rw [hd]
    show q.val = if b = 1 then 0 else q.val
    split
    · have := q.isLt; omega
    · rfl

/-- A column `[a, 1]` spread over `[a, b]` reads, at `(p, q)`, the column at `(p, 0)`. -/
theorem col_to_mat_apply {a b : ℕ} (dims : Fin 2 → Fin 2) (hd0 : dims 0 = 0) (hd1 : dims 1 = 1)
    (h : (⟨2, ![a, 1]⟩ : Shape).BroadcastsInDim ⟨2, ![a, b]⟩ dims) (v : (⟨2, ![a, 1]⟩ : Shape).Idx → α) (p : Fin a) (q : Fin b) :
    broadcastInDim ⟨2, ![a, b]⟩ dims h v (ix2 p q) = v (ix2 p (0 : Fin 1)) := by
  refine broadcastInDim_apply dims h v (ix2 p q) (ix2 p (0 : Fin 1)) fun ax => ?_
  match ax with
  | ⟨0, _⟩ =>
    show p.val = if a = 1 then 0 else ((ix2 p q : (⟨2, ![a, b]⟩ : Shape).Idx) (dims 0)).val
    rw [hd0]
    show p.val = if a = 1 then 0 else p.val
    split
    · have := p.isLt; omega
    · rfl
  | ⟨1, _⟩ =>
    show 0 = if (1 : ℕ) = 1 then 0 else ((ix2 p q : (⟨2, ![a, b]⟩ : Shape).Idx) (dims 1)).val
    rw [if_pos rfl]

/-- A row `[1, b]` spread over `[a, b]` reads, at `(p, q)`, the row at `(0, q)`. -/
theorem row_to_mat_apply {a b : ℕ} (dims : Fin 2 → Fin 2) (hd0 : dims 0 = 0) (hd1 : dims 1 = 1)
    (h : (⟨2, ![1, b]⟩ : Shape).BroadcastsInDim ⟨2, ![a, b]⟩ dims) (v : (⟨2, ![1, b]⟩ : Shape).Idx → α) (p : Fin a) (q : Fin b) :
    broadcastInDim ⟨2, ![a, b]⟩ dims h v (ix2 p q) = v (ix2 (0 : Fin 1) q) := by
  refine broadcastInDim_apply dims h v (ix2 p q) (ix2 (0 : Fin 1) q) fun ax => ?_
  match ax with
  | ⟨0, _⟩ =>
    show 0 = if (1 : ℕ) = 1 then 0 else ((ix2 p q : (⟨2, ![a, b]⟩ : Shape).Idx) (dims 0)).val
    rw [if_pos rfl]
  | ⟨1, _⟩ =>
    show q.val = if b = 1 then 0 else ((ix2 p q : (⟨2, ![a, b]⟩ : Shape).Idx) (dims 1)).val
    rw [hd1]
    show q.val = if b = 1 then 0 else q.val
    split
    · have := q.isLt; omega
    · rfl

/-- A scalar spread over any shape reads, everywhere, the scalar. -/
theorem scalar_apply {t : Shape} (dims : Fin 0 → Fin t.rank) (h : (⟨0, ![]⟩ : Shape).BroadcastsInDim t dims)
    (v : (⟨0, ![]⟩ : Shape).Idx → α) (j : t.Idx) : broadcastInDim t dims h v j = v ix0 :=
  broadcastInDim_apply dims h v j ix0 fun ax => ax.elim0

end Cert.LibBroadcastInDim
-- ==== Proof.Prefix.lean ====
/-
  The arrays the region is launched on.

  Before the region the program narrows the node features to the staging format, stacks the 16 relation weight
  matrices and the self weight matrix into one stack of 17, transposes every matrix of the stack (so that the kernel's
  product reads it as features-in by features-out) and narrows it, and stacks the 16 relation biases and the self bias
  into 17 rows. At the extended reals the narrowing is the identity, so: the stack at (r, k, o) is relation r's weight
  at (o, k) for r < 16 and the self weight at (o, k) for r = 16; the bias rows at (r, o) are relation r's bias at o for
  r < 16 and the self bias at o for r = 16.
-/
import proofs.«149958_j68178310857464_1_alg».proof.Proof.Gen.KernelIdeal
import proofs.«149958_j68178310857464_1_alg».proof.Proof.LibBroadcastInDim
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Prefix

open Idealize.ShloMosaic Idealize.ShloMosaic.ValueIdx Cert.KernelIdeal Cert.KernelIdeal.Gen

/-- The node features as the region finds them. -/
def feat (a0 : FVec Ideal S20000x512 .f32) : Vec Ideal S20000x512 .bf16 :=
  truncf .bf16 a0 bitsLt_bf16_f32

/-- The stack of 17 transposed weight matrices as the region finds it. -/
def wstack (a6 : FVec Ideal S16x512x512 .f32) (a4 : FVec Ideal S512x512 .f32) : Vec Ideal S17x512x512 .bf16 :=
  truncf .bf16
    (transpose S17x512x512 [0, 2, 1]
      (concatenate S17x512x512 0
        [⟨S16x512x512, a6⟩, ⟨S1x512x512, broadcastInDim S1x512x512 ![1, 2] bcast_S512x512_S1x512x512_1_2 a4⟩]
        concatenates_S16x512x512_S1x512x512_S17x512x512_d0)
      transposes_S17x512x512_S17x512x512_0_2_1)
    bitsLt_bf16_f32

/-- The 17 bias rows as the region finds them. -/
def bstack (a7 : FVec Ideal S16x512 .f32) (a5 : FVec Ideal S512 .f32) : Vec Ideal S17x512 .f32 :=
  concatenate S17x512 0 [⟨S16x512, a7⟩, ⟨S1x512, broadcastInDim S1x512 ![1] bcast_S512_S1x512_1 a5⟩]
    concatenates_S16x512_S1x512_S17x512_d0

theorem feat_apply (a0 : FVec Ideal S20000x512 .f32) (i : S20000x512.Idx) : feat a0 i = a0 i := rfl

/-- Matrix r < 16 of the stack, at (k, o), is relation r's weight at (o, k). -/
theorem wstack_rel (a6 : FVec Ideal S16x512x512 .f32) (a4 : FVec Ideal S512x512 .f32) (r : Fin 16) (k o : Fin 512) :
    wstack a6 a4 (ix3 (⟨r.val, by omega⟩ : Fin 17) k o) = a6 (ix3 r o k) := by
  unfold wstack
  rw [truncf_apply, transpose_ix3_021_apply]
  exact concatenate_pair_apply_left (0 : Fin 3) a6 _ concatenates_S16x512x512_S1x512x512_S17x512x512_d0
    (ix3 (⟨r.val, by omega⟩ : Fin 17) o k) rfl (ix3 r o k)
    (fun b => by match b with | ⟨0, _⟩ => rfl | ⟨1, _⟩ => rfl | ⟨2, _⟩ => rfl)

/-- Matrix 16 of the stack, at (k, o), is the self weight at (o, k). -/
theorem wstack_self (a6 : FVec Ideal S16x512x512 .f32) (a4 : FVec Ideal S512x512 .f32) (k o : Fin 512) :
    wstack a6 a4 (ix3 (⟨16, by omega⟩ : Fin 17) k o) = a4 (ix2 o k) := by
  unfold wstack
  rw [truncf_apply, transpose_ix3_021_apply]
  refine (concatenate_pair_apply_right (s₂ := S1x512x512) (0 : Fin 3) a6
    (broadcastInDim S1x512x512 ![1, 2] bcast_S512x512_S1x512x512_1_2 a4) concatenates_S16x512x512_S1x512x512_S17x512x512_d0
    (ix3 (⟨16, by omega⟩ : Fin 17) o k) rfl rfl (ix3 (0 : Fin 1) o k : S1x512x512.Idx)
    (fun b hb => by
      match b with
      | ⟨0, _⟩ => exact absurd rfl hb
      | ⟨1, _⟩ => rfl
      | ⟨2, _⟩ => rfl) rfl).trans ?_
  refine broadcastInDim_apply _ bcast_S512x512_S1x512x512_1_2 a4 (ix3 (0 : Fin 1) o k) (ix2 o k) fun a => ?_
  match a with
  | ⟨0, _⟩ => show o.val = if (512 : ℕ) = 1 then 0 else o.val; rw [if_neg (by decide)]
  | ⟨1, _⟩ => show k.val = if (512 : ℕ) = 1 then 0 else k.val; rw [if_neg (by decide)]

/-- Bias row r < 16, at o, is relation r's bias at o. -/
theorem bstack_rel (a7 : FVec Ideal S16x512 .f32) (a5 : FVec Ideal S512 .f32) (r : Fin 16) (o : Fin 512) :
    bstack a7 a5 (ix2 (⟨r.val, by omega⟩ : Fin 17) o) = a7 (ix2 r o) := by
  unfold bstack
  exact concatenate_pair_apply_left (0 : Fin 2) a7 _ concatenates_S16x512_S1x512_S17x512_d0
    (ix2 (⟨r.val, by omega⟩ : Fin 17) o) rfl (ix2 r o)
    (fun b => by match b with | ⟨0, _⟩ => rfl | ⟨1, _⟩ => rfl)

/-- Bias row 16, at o, is the self bias at o. -/
theorem bstack_self (a7 : FVec Ideal S16x512 .f32) (a5 : FVec Ideal S512 .f32) (o : Fin 512) :
    bstack a7 a5 (ix2 (⟨16, by omega⟩ : Fin 17) o) = a5 (ix1 o) := by
  unfold bstack
  refine (concatenate_pair_apply_right (s₂ := S1x512) (0 : Fin 2) a7
    (broadcastInDim S1x512 ![1] bcast_S512_S1x512_1 a5) concatenates_S16x512_S1x512_S17x512_d0
    (ix2 (⟨16, by omega⟩ : Fin 17) o) rfl rfl (ix2 (0 : Fin 1) o : S1x512.Idx)
    (fun b hb => by
      match b with
      | ⟨0, _⟩ => exact absurd rfl hb
      | ⟨1, _⟩ => rfl) rfl).trans ?_
  exact Cert.LibBroadcastInDim.vec_to_row_apply _ rfl bcast_S512_S1x512_1 a5 (0 : Fin 1) o

end Cert.KernelIdeal.Prefix

end
-- ==== Proof.KernelValue.lean ====
/-
  The kernel program's run, with its result named.

  The region finds the narrowed features, the stack of 17 transposed weight matrices and the 17 bias rows (the host
  lines before it); it leaves the result array at the array function of those three (the blocks-to-array step); the
  host lines after it apply the reference's chain to slabs 0 … 15 and slab 16 of that array and to the edge arrays.
-/
import proofs.«149958_j68178310857464_1_alg».proof.Proof.Gen.KernelIdeal.Frame
import proofs.«149958_j68178310857464_1_alg».proof.Proof.ArrayValue
import proofs.«149958_j68178310857464_1_alg».proof.Proof.TailOps
import proofs.«149958_j68178310857464_1_alg».proof.Proof.Prefix

set_option maxRecDepth 16384

noncomputable section

namespace Cert.KernelIdeal.KernelValue

open Idealize.ShloMosaic Idealize.ShloMosaic.TcCoe Idealize.SL.Sem Idealize.ShloMosaic.StableHlo
open Cert.KernelIdeal Cert.KernelIdeal.Gen Cert.KernelIdeal.ArrayValue Cert.KernelIdeal.Tail Cert.KernelIdeal.Prefix

variable (m : (ℓ : Loc nD τ sig) → Buf (Elt Ideal) ℓ) (ρ : Dev nD → PrngReg)

/-- The result array of the region as a function of the program's arguments. -/
def regionArray (c : Dev nD) : Vec Ideal S17x20000x512 .bf16 :=
  arrFn (feat (m ((c.tc : Thread nD τ).loc main_arg0)))
    (wstack (m ((c.tc : Thread nD τ).loc main_arg6)) (m ((c.tc : Thread nD τ).loc main_arg4)))
    (bstack (m ((c.tc : Thread nD τ).loc main_arg7)) (m ((c.tc : Thread nD τ).loc main_arg5)))

/-- The program's result as a function of its arguments. -/
def result (c : Dev nD) : FVec Ideal S20000x512 .f32 :=
  Cert.ReferenceIdeal.RefValue.tail (relTable (regionArray m c)) (selfRows (regionArray m c))
    (m ((c.tc : Thread nD τ).loc main_arg1)) (m ((c.tc : Thread nD τ).loc main_arg2)) (m ((c.tc : Thread nD τ).loc main_arg3))

/-- The region finds the narrowed features in its first array, -/
theorem V_feat (c : Dev nD) : V m c main_v0 = feat (m ((c.tc : Thread nD τ).loc main_arg0)) := by
  show StableHlo.after hostOps0 (fun b => m (c, b)) (Proc.devRef .tc main_v0) = _
  after_results
  rfl

/-- the stack of transposed weight matrices in its second, -/
theorem V_wstack (c : Dev nD) :
    V m c main_v6 = wstack (m ((c.tc : Thread nD τ).loc main_arg6)) (m ((c.tc : Thread nD τ).loc main_arg4)) := by
  show StableHlo.after hostOps0 (fun b => m (c, b)) (Proc.devRef .tc main_v6) = _
  after_results
  rfl

/-- and the bias rows in its third. -/
theorem V_bstack (c : Dev nD) :
    V m c main_v4 = bstack (m ((c.tc : Thread nD τ).loc main_arg7)) (m ((c.tc : Thread nD τ).loc main_arg5)) := by
  show StableHlo.after hostOps0 (fun b => m (c, b)) (Proc.devRef .tc main_v4) = _
  after_results
  rfl

/-- After the region the result array is `regionArray`. -/
theorem final_args (c : Dev nD) : (dats m 0 c).arrAt 3 cfg0.N = regionArray m c := by
  rw [final m c, V_feat, V_wstack, V_bstack]
  rfl

/-- What the host lines after the region leave in the program's result buffer. -/
theorem tail_result (c : Dev nD) :
    Pipeline.afterTail₀ cfgs (dats m) 0 (V0 m) [hostOps1, hostOps1_1] c main_v52 = result m c := by
  unfold Pipeline.afterTail₀
  have hfl : ([hostOps1, hostOps1_1] : List (List (HloOp τ sig (Elt Ideal)))).flatten = hostOps1 ++ hostOps1_1 := by
    simp only [List.flatten_cons, List.flatten_nil, List.append_nil]
  rw [hfl, tail_after]
  have h7 : Pipeline.withArrays (cfgs 0).spec c (V0 m c) (fun w => (dats m 0 c).arrAt w (cfgs 0).N) (Proc.devRef .tc main_v7)
      = regionArray m c :=
    (Pipeline.withArrays_arr spec0 launch0.win.arr_inj c (V0 m c) (fun w => (dats m 0 c).arrAt w (cfgs 0).N) 3).trans
      (final_args m c)
  have h1 : Pipeline.withArrays (cfgs 0).spec c (V0 m c) (fun w => (dats m 0 c).arrAt w (cfgs 0).N) (Proc.devRef .tc main_arg1)
      = m ((c.tc : Thread nD τ).loc main_arg1) :=
    (Pipeline.withArrays_of_ne _ c (V0 m c) _ main_arg1 (by exact (by decide : ∀ w, Pipeline.arrRef spec0 w ≠ main_arg1))).trans
      (V_main_arg1 m c)
  have h2 : Pipeline.withArrays (cfgs 0).spec c (V0 m c) (fun w => (dats m 0 c).arrAt w (cfgs 0).N) (Proc.devRef .tc main_arg2)
      = m ((c.tc : Thread nD τ).loc main_arg2) :=
    (Pipeline.withArrays_of_ne _ c (V0 m c) _ main_arg2 (by exact (by decide : ∀ w, Pipeline.arrRef spec0 w ≠ main_arg2))).trans
      (V_main_arg2 m c)
  have h3 : Pipeline.withArrays (cfgs 0).spec c (V0 m c) (fun w => (dats m 0 c).arrAt w (cfgs 0).N) (Proc.devRef .tc main_arg3)
      = m ((c.tc : Thread nD τ).loc main_arg3) :=
    (Pipeline.withArrays_of_ne _ c (V0 m c) _ main_arg3 (by exact (by decide : ∀ w, Pipeline.arrRef spec0 w ≠ main_arg3))).trans
      (V_main_arg3 m c)
  rw [h7, h1, h2, h3]
  rfl

/-- THE RUN: every weakly fair execution of the kernel's program terminates, with the result buffer at `result` of
    the arguments and the arguments unchanged. -/
theorem run : θ_run defs (onTc (τ := τ) (main (F := Ideal))) ⟨m, fun _ => 0, ρ⟩ (fun r => ∀ c : Dev nD,
      r.2.mem ((c.tc : Thread nD τ).loc main_v52) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨((h c).2 main_v52 (Pipeline.mem_restRefs_of main_v52 (by decide) (by decide))).trans (tail_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (run_main m ρ)

end Cert.KernelIdeal.KernelValue

end
-- ==== Proof.Bridge.lean ====
/-
  The two sides meet.

  Slabs 0 … 15 of the kernel's result array are the reference's table of relation transforms, and slab 16 (as a matrix)
  is the reference's self transform, index by index: on both sides the entry at (r, n, o) is the sum over k of the node
  feature (n, k) times the weight of relation r at (o, k), plus the bias of relation r at o — the kernel reads the weight
  through its stacked, transposed copy, the reference through its own transposes. No law of the extended reals is used
  beyond reading both sides at an index: the sums have the same terms in the same order.
-/
import proofs.«149958_j68178310857464_1_alg».proof.Proof.ArrayValue
import proofs.«149958_j68178310857464_1_alg».proof.Proof.TailOps
import proofs.«149958_j68178310857464_1_alg».proof.Proof.Prefix
import proofs.«149958_j68178310857464_1_alg».proof.Proof.RefValue

noncomputable section

namespace Cert.Bridge

open Idealize.ShloMosaic Idealize.ShloMosaic.ValueIdx
open Cert.KernelIdeal Cert.KernelIdeal.Gen Cert.KernelIdeal.Block Cert.KernelIdeal.ArrayValue Cert.KernelIdeal.Tail
open Cert.KernelIdeal.Prefix
open Cert.ReferenceIdeal.Read Cert.ReferenceIdeal.RefValue

/-- Slabs 0 … 15 of the kernel's result array are the reference's table of relation transforms. -/
theorem rel_eq (a0 : FVec Ideal S20000x512 .f32) (a4 : FVec Ideal S512x512 .f32) (a5 : FVec Ideal S512 .f32)
    (a6 : FVec Ideal S16x512x512 .f32) (a7 : FVec Ideal S16x512 .f32) :
    relTable (arrFn (feat a0) (wstack a6 a4) (bstack a7 a5)) = val_main_v9 (F := Ideal) a0 a6 a7 := by
  funext i
  obtain ⟨r, n, o, rfl⟩ : ∃ (r : Fin 16) (n : Fin 20000) (o : Fin 512), i = ix3 r n o := ⟨i 0, i 1, i 2, eq_ix3 i⟩
  rw [H_apply]
  unfold relTable
  rw [extractStridedSlice_apply ![0, 0, 0] _ slices_S17x20000x512_S16x20000x512_0_0_0 (ix3 r n o)
    (ix3 (⟨r.val, by omega⟩ : Fin 17) n o) (fun a => by
      match a with
      | ⟨0, _⟩ => show r.val = 0 + r.val; omega
      | ⟨1, _⟩ => show n.val = 0 + n.val; omega
      | ⟨2, _⟩ => show o.val = 0 + o.val; omega)]
  rw [arrFn_ix3]
  unfold rowLin
  rw [bstack_rel]
  refine congrArg (· + _) (Finset.sum_congr rfl fun k _ => ?_)
  rw [feat_apply, wstack_rel]

/-- Slab 16 of the kernel's result array, as a matrix, is the reference's self transform. -/
theorem self_eq (a0 : FVec Ideal S20000x512 .f32) (a4 : FVec Ideal S512x512 .f32) (a5 : FVec Ideal S512 .f32)
    (a6 : FVec Ideal S16x512x512 .f32) (a7 : FVec Ideal S16x512 .f32) :
    selfRows (arrFn (feat a0) (wstack a6 a4) (bstack a7 a5)) = val_main_v4 (F := Ideal) a0 a4 a5 := by
  funext i
  obtain ⟨n, o, rfl⟩ : ∃ (n : Fin 20000) (o : Fin 512), i = ix2 n o := ⟨i 0, i 1, eq_ix2 i⟩
  rw [hs_apply]
  unfold selfRows
  rw [shapeCast_1ab_ab_apply]
  rw [extractStridedSlice_apply ![16, 0, 0] _ slices_S17x20000x512_S1x20000x512_16_0_0 (ix3 (0 : Fin 1) n o)
    (ix3 (⟨16, by omega⟩ : Fin 17) n o) (fun a => by
      match a with
      | ⟨0, _⟩ => rfl
      | ⟨1, _⟩ => show n.val = 0 + n.val; omega
      | ⟨2, _⟩ => show o.val = 0 + o.val; omega)]
  rw [arrFn_ix3]
  unfold rowLin
  rw [bstack_self]
  refine congrArg (· + _) (Finset.sum_congr rfl fun k _ => ?_)
  rw [feat_apply, wstack_self]

end Cert.Bridge

end
-- ==== Proof.lean ====
/-
  The certificate of `Cert.Claim`: a relational graph layer.

  Both programs compute  relu (hs + A₁ + A₂)  where hs is the self transform of the node features,
  hs (n, o) = ∑ k, X (n, k) · Wself (o, k) + bself (o),  and A₁, A₂ add up, per head node and per tail node, rows gathered
  from the table of relation transforms  H (r, n, o) = ∑ k, X (n, k) · Wrel (r, o, k) + brel (r, o).  The reference computes hs
  and H by two host products. The kernel's program stacks the 17 weight matrices (16 relations and the self transform),
  computes all 17 transforms in one launch, 400 rows of the features per grid point, and takes H and hs out of the result
  as slabs 0 … 15 and slab 16; from there on the two programs apply the same host operations.

  The frames of the two kernel programs are the generated ones; the reference's frame is its generated run with the result
  dropped; the idealization rewrote nothing. The value claim: the kernel program's run with its result named
  (Proof/KernelValue.lean, over Proof/Slab.lean, Block.lean, ArrayValue.lean, Prefix.lean, TailOps.lean), the reference's
  run read back (generated) with its result as the shared chain of its table and self transform (Proof/RefValue.lean), and
  the equality of the two tables and the two self transforms index by index (Proof/Bridge.lean).
-/
import proofs.«149958_j68178310857464_1_alg».proof.Defs
import proofs.«149958_j68178310857464_1_alg».proof.Proof.Gen.Kernel
import proofs.«149958_j68178310857464_1_alg».proof.Proof.Gen.Kernel.Skeleton
import proofs.«149958_j68178310857464_1_alg».proof.Proof.Gen.Kernel.Launch
import proofs.«149958_j68178310857464_1_alg».proof.Proof.Gen.Kernel.Points
import proofs.«149958_j68178310857464_1_alg».proof.Proof.Gen.Kernel.Frame
import proofs.«149958_j68178310857464_1_alg».proof.Proof.Gen.KernelIdeal
import proofs.«149958_j68178310857464_1_alg».proof.Proof.Gen.KernelIdeal.Skeleton
import proofs.«149958_j68178310857464_1_alg».proof.Proof.Gen.KernelIdeal.Launch
import proofs.«149958_j68178310857464_1_alg».proof.Proof.Gen.KernelIdeal.Points
import proofs.«149958_j68178310857464_1_alg».proof.Proof.Gen.KernelIdeal.Frame
import proofs.«149958_j68178310857464_1_alg».proof.Proof.Gen.ReferenceIdeal
import proofs.«149958_j68178310857464_1_alg».proof.Proof.Gen.ReferenceIdeal.Run
import proofs.«149958_j68178310857464_1_alg».proof.Proof.Gen.ReferenceIdeal.Read
import proofs.«149958_j68178310857464_1_alg».proof.Proof.Gen.Pre_finite_inputs
import proofs.«149958_j68178310857464_1_alg».proof.Proof.KernelValue
import proofs.«149958_j68178310857464_1_alg».proof.Proof.RefValue
import proofs.«149958_j68178310857464_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the kernel program's `result`: the reference's
    result is the shared chain of its table and self transform, which are slabs 0 … 15 and slab 16 of the kernel's
    result array. -/
theorem algebraic : Cert.algebraic_KernelIdeal_ReferenceIdeal := by
  intro m ρ m' ρ' _ hagree
  refine ⟨fun c => Cert.KernelIdeal.KernelValue.result m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7⟩ := hagree c
  rw [Cert.ReferenceIdeal.Read.val_main_v48_eq, Cert.ReferenceIdeal.RefValue.result_eq_tail, e0, e1, e2, e3, e4, e5, e6, e7]
  unfold Cert.KernelIdeal.KernelValue.result Cert.KernelIdeal.KernelValue.regionArray
  beta_reduce
  rw [Cert.Bridge.rel_eq, Cert.Bridge.self_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
